-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x8x64 : Shape := ⟨4, ![4, 1024, 8, 64]⟩
abbrev S_ : Shape := ⟨0, ![]⟩

class Facts : Prop where
  bcast_S_S4x1024x8x64 : S_.BroadcastsInDim S4x1024x8x64 (![] : Fin 0 → Fin S4x1024x8x64.rank)
  reducesTo_S4x1024x8x64_S_d0_1_2_3 : S4x1024x8x64.ReducesTo [0, 1, 2, 3] S_
  h_S_ : 0 < S_.numel

variable [Facts]

def fn {F : FTy → Type} [FloatOps F] (main_arg0 : FVec F S4x1024x8x64 .f32) (main_arg1 : FVec F S4x1024x8x64 .f32) (main_arg2 : FVec F S4x1024x8x64 .f32) : IVec S_ 1 :=
  let main_v0 : FVec F S4x1024x8x64 .f32 := Host.absf main_arg0
  let main_cst : FVec F S_ .f32 := constant S_ .f32 0x7F800000#32
  let main_v1 : FVec F S4x1024x8x64 .f32 := broadcastInDim S4x1024x8x64 ![] bcast_S_S4x1024x8x64 main_cst
  let main_v2 : IVec S4x1024x8x64 1 := cmpf .olt main_v0 main_v1
  let main_c : IVec S_ 1 := constantI S_ 1 1#1
  let main_v3 : IVec S_ 1 := (fun x v => Host.reduce IntOp.andi x v reducesTo_S4x1024x8x64_S_d0_1_2_3 h_S_) main_v2 main_c
  let main_v4 : FVec F S4x1024x8x64 .f32 := Host.absf main_arg1
  let main_cst_0 : FVec F S_ .f32 := constant S_ .f32 0x7F800000#32
  let main_v5 : FVec F S4x1024x8x64 .f32 := broadcastInDim S4x1024x8x64 ![] bcast_S_S4x1024x8x64 main_cst_0
  let main_v6 : IVec S4x1024x8x64 1 := cmpf .olt main_v4 main_v5
  let main_c_1 : IVec S_ 1 := constantI S_ 1 1#1
  let main_v7 : IVec S_ 1 := (fun x v => Host.reduce IntOp.andi x v reducesTo_S4x1024x8x64_S_d0_1_2_3 h_S_) main_v6 main_c_1
  let main_v8 : IVec S_ 1 := andi main_v3 main_v7
  let main_v9 : FVec F S4x1024x8x64 .f32 := Host.absf main_arg2
  let main_cst_2 : FVec F S_ .f32 := constant S_ .f32 0x7F800000#32
  let main_v10 : FVec F S4x1024x8x64 .f32 := broadcastInDim S4x1024x8x64 ![] bcast_S_S4x1024x8x64 main_cst_2
  let main_v11 : IVec S4x1024x8x64 1 := cmpf .olt main_v9 main_v10
  let main_c_3 : IVec S_ 1 := constantI S_ 1 1#1
  let main_v12 : IVec S_ 1 := (fun x v => Host.reduce IntOp.andi x v reducesTo_S4x1024x8x64_S_d0_1_2_3 h_S_) main_v11 main_c_3
  let main_v13 : IVec S_ 1 := andi main_v8 main_v12
  main_v13
-- ==== Kernel.lean ====
abbrev S4x1024x8x64 : Shape := ⟨4, ![4, 1024, 8, 64]⟩
abbrev S4x1024x512 : Shape := ⟨3, ![4, 1024, 512]⟩
abbrev S4x8x1024x64 : Shape := ⟨4, ![4, 8, 1024, 64]⟩
abbrev S4x8x1024x1024 : Shape := ⟨4, ![4, 8, 1024, 1024]⟩
abbrev S1x1024x128 : Shape := ⟨3, ![1, 1024, 128]⟩
abbrev S1x2x1024x64 : Shape := ⟨4, ![1, 2, 1024, 64]⟩
abbrev S1x2x1024x1024 : Shape := ⟨4, ![1, 2, 1024, 1024]⟩
abbrev S1024x128 : Shape := ⟨2, ![1024, 128]⟩
abbrev S1024x64 : Shape := ⟨2, ![1024, 64]⟩
abbrev S1024 : Shape := ⟨1, ![1024]⟩
abbrev S1024x1 : Shape := ⟨2, ![1024, 1]⟩
abbrev S64x1024 : Shape := ⟨2, ![64, 1024]⟩
abbrev S1024x1024 : Shape := ⟨2, ![1024, 1024]⟩
abbrev S1x1x1024x1024 : Shape := ⟨4, ![1, 1, 1024, 1024]⟩
abbrev S1x1x1024x64 : Shape := ⟨4, ![1, 1, 1024, 64]⟩

abbrev nBuf : Space → Nat
  | .hbm => 8
  | .vmem => 10
  | .smem => 0
  | _ => 0

abbrev bufTy : (tb : Table) → Fin (tcTables nBuf tb) → BufTy
  | .hbm, ⟨0, _⟩ => ⟨S4x1024x8x64, .f32⟩
  | .hbm, ⟨1, _⟩ => ⟨S4x1024x8x64, .f32⟩
  | .hbm, ⟨2, _⟩ => ⟨S4x1024x8x64, .f32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x8x1024x64, .f32⟩
  | .hbm, ⟨7, _⟩ => ⟨S4x8x1024x1024, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x2x1024x64, .f32⟩
  | .local _ .vmem, ⟨7, _⟩ => ⟨S1x2x1024x64, .f32⟩
  | .local _ .vmem, ⟨8, _⟩ => ⟨S1x2x1024x1024, .f32⟩
  | .local _ .vmem, ⟨9, _⟩ => ⟨S1x2x1024x1024, .f32⟩
  | _, _ => ⟨S4x1024x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x1024x8x64_S4x1024x512 : S4x1024x8x64.ShapeCasts S4x1024x512
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  slices_S1024x128_o0_0_S1024x64 : S1024x128.Slices ![0, 0] S1024x64
  reduces_S1024x64_S1024 : S1024x64.Reduces [1] S1024
  shapeCasts_S1024_S1024x1 : S1024.ShapeCasts S1024x1
  broadcasts_S1024x1_S1024x64 : S1024x1.Broadcasts S1024x64
  bitsLt_bf16_f32 : FTy.bits .bf16 < FTy.bits .f32
  transposes_S1024x64_p1_0_S64x1024 : S1024x64.Transposes [1, 0] S64x1024
  reduces_S1024x1024_S1024 : S1024x1024.Reduces [1] S1024
  broadcasts_S1024x1_S1024x1024 : S1024x1.Broadcasts S1024x1024
  inb_S1x2x1024x1024_S1x1x1024x1024_0_0_0_0 : ∀ a, (![0, 0, 0, 0] : Fin 4 → Nat) a + S1x1x1024x1024.size a ≤ S1x2x1024x1024.size a
  h_S1x1x1024x1024 : 0 < S1x1x1024x1024.numel
  shapeCasts_S1x1x1024x1024_S1024x1024 : S1x1x1024x1024.ShapeCasts S1024x1024
  shapeCasts_S1024x1024_S1x1x1024x1024 : S1024x1024.ShapeCasts S1x1x1024x1024
  inb_S1x2x1024x64_S1x1x1024x64_0_0_0_0 : ∀ a, (![0, 0, 0, 0] : Fin 4 → Nat) a + S1x1x1024x64.size a ≤ S1x2x1024x64.size a
  h_S1x1x1024x64 : 0 < S1x1x1024x64.numel
  shapeCasts_S1x1x1024x64_S1024x64 : S1x1x1024x64.ShapeCasts S1024x64
  shapeCasts_S1024x64_S1x1x1024x64 : S1024x64.ShapeCasts S1x1x1024x64
  slices_S1024x128_o0_64_S1024x64 : S1024x128.Slices ![0, 64] S1024x64
  inb_S1x2x1024x1024_S1x1x1024x1024_0_1_0_0 : ∀ a, (![0, 1, 0, 0] : Fin 4 → Nat) a + S1x1x1024x1024.size a ≤ S1x2x1024x1024.size a
  inb_S1x2x1024x64_S1x1x1024x64_0_1_0_0 : ∀ a, (![0, 1, 0, 0] : Fin 4 → Nat) a + S1x1x1024x64.size a ≤ S1x2x1024x64.size a
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S4x1024x512.size a
  hwx0_0 : ∀ i : grid0.Coords, EltTy.bits .f32 = 32 ∨ (Rect.block (s := S4x1024x512) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S4x1024x512.size a
  hwx0_1 : ∀ i : grid0.Coords, EltTy.bits .f32 = 32 ∨ (Rect.block (s := S4x1024x512) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S4x1024x512.size a
  hwx0_2 : ∀ i : grid0.Coords, EltTy.bits .f32 = 32 ∨ (Rect.block (s := S4x1024x512) S1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x1024x64.size a ≤ S4x8x1024x64.size a
  hwx0_3 : ∀ i : grid0.Coords, EltTy.bits .f32 = 32 ∨ (Rect.block (s := S4x8x1024x64) S1x2x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x1024x1024.size a ≤ S4x8x1024x1024.size a
  hwx0_4 : ∀ i : grid0.Coords, EltTy.bits .f32 = 32 ∨ (Rect.block (s := S4x8x1024x1024) S1x2x1024x1024.size (cc0_transform_4 i) (hinb0_4 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x2x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x2x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x1024x8x64 : Shape := ⟨4, ![4, 1024, 8, 64]⟩
abbrev S4x8x1024x64 : Shape := ⟨4, ![4, 8, 1024, 64]⟩
abbrev S_ : Shape := ⟨0, ![]⟩
abbrev S4x8x1024 : Shape := ⟨3, ![4, 8, 1024]⟩
abbrev S4x8x1024x1 : Shape := ⟨4, ![4, 8, 1024, 1]⟩
abbrev S4x8x1024x1024 : Shape := ⟨4, ![4, 8, 1024, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x8x64, .f32⟩
  | .hbm, ⟨1, _⟩ => ⟨S4x1024x8x64, .f32⟩
  | .hbm, ⟨2, _⟩ => ⟨S4x1024x8x64, .f32⟩
  | .hbm, ⟨3, _⟩ => ⟨S4x8x1024x64, .f32⟩
  | .hbm, ⟨4, _⟩ => ⟨S4x8x1024x64, .f32⟩
  | .hbm, ⟨5, _⟩ => ⟨S4x8x1024x64, .f32⟩
  | .hbm, ⟨6, _⟩ => ⟨S4x8x1024x64, .f32⟩
  | .hbm, ⟨7, _⟩ => ⟨S_, .f32⟩
  | .hbm, ⟨8, _⟩ => ⟨S4x8x1024, .f32⟩
  | .hbm, ⟨9, _⟩ => ⟨S4x8x1024x1, .f32⟩
  | .hbm, ⟨10, _⟩ => ⟨S4x8x1024x1, .f32⟩
  | .hbm, ⟨11, _⟩ => ⟨S_, .f32⟩
  | .hbm, ⟨12, _⟩ => ⟨S4x8x1024x1, .f32⟩
  | .hbm, ⟨13, _⟩ => ⟨S4x8x1024x1, .f32⟩
  | .hbm, ⟨14, _⟩ => ⟨S4x8x1024x64, .f32⟩
  | .hbm, ⟨15, _⟩ => ⟨S4x8x1024x64, .f32⟩
  | .hbm, ⟨16, _⟩ => ⟨S4x8x1024x64, .f32⟩
  | .hbm, ⟨17, _⟩ => ⟨S_, .f32⟩
  | .hbm, ⟨18, _⟩ => ⟨S4x8x1024, .f32⟩
  | .hbm, ⟨19, _⟩ => ⟨S4x8x1024x1, .f32⟩
  | .hbm, ⟨20, _⟩ => ⟨S4x8x1024x1, .f32⟩
  | .hbm, ⟨21, _⟩ => ⟨S_, .f32⟩
  | .hbm, ⟨22, _⟩ => ⟨S4x8x1024x1, .f32⟩
  | .hbm, ⟨23, _⟩ => ⟨S4x8x1024x1, .f32⟩
  | .hbm, ⟨24, _⟩ => ⟨S4x8x1024x64, .f32⟩
  | .hbm, ⟨25, _⟩ => ⟨S4x8x1024x64, .f32⟩
  | .hbm, ⟨26, _⟩ => ⟨S4x8x1024x1024, .f32⟩
  | .hbm, ⟨27, _⟩ => ⟨S_, .f32⟩
  | .hbm, ⟨28, _⟩ => ⟨S4x8x1024x1024, .f32⟩
  | .hbm, ⟨29, _⟩ => ⟨S4x8x1024x1024, .f32⟩
  | .hbm, ⟨30, _⟩ => ⟨S_, .f32⟩
  | .hbm, ⟨31, _⟩ => ⟨S4x8x1024, .f32⟩
  | .hbm, ⟨32, _⟩ => ⟨S_, .f32⟩
  | .hbm, ⟨33, _⟩ => ⟨S4x8x1024, .f32⟩
  | .hbm, ⟨34, _⟩ => ⟨S4x8x1024, .f32⟩
  | .hbm, ⟨35, _⟩ => ⟨S4x8x1024x1, .f32⟩
  | .hbm, ⟨36, _⟩ => ⟨S4x8x1024x1024, .f32⟩
  | .hbm, ⟨37, _⟩ => ⟨S4x8x1024x1024, .f32⟩
  | .hbm, ⟨38, _⟩ => ⟨S4x8x1024x1024, .f32⟩
  | .hbm, ⟨39, _⟩ => ⟨S_, .f32⟩
  | .hbm, ⟨40, _⟩ => ⟨S4x8x1024, .f32⟩
  | .hbm, ⟨41, _⟩ => ⟨S4x8x1024x1, .f32⟩
  | .hbm, ⟨42, _⟩ => ⟨S4x8x1024x1024, .f32⟩
  | .hbm, ⟨43, _⟩ => ⟨S4x8x1024x1024, .f32⟩
  | .hbm, ⟨44, _⟩ => ⟨S4x8x1024x64, .f32⟩
  | _, _ => ⟨S4x1024x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  transposes_S4x1024x8x64_S4x8x1024x64_0_2_1_3 : S4x1024x8x64.Transposes [0, 2, 1, 3] S4x8x1024x64
  reducesTo_S4x8x1024x64_S4x8x1024_d3 : S4x8x1024x64.ReducesTo [3] S4x8x1024
  h_S_ : 0 < S_.numel
  bcast_S4x8x1024_S4x8x1024x1_0_1_2 : S4x8x1024.BroadcastsInDim S4x8x1024x1 (![0, 1, 2] : Fin 3 → Fin S4x8x1024x1.rank)
  bcast_S_S4x8x1024x1 : S_.BroadcastsInDim S4x8x1024x1 (![] : Fin 0 → Fin S4x8x1024x1.rank)
  bcast_S4x8x1024x1_S4x8x1024x64_0_1_2_3 : S4x8x1024x1.BroadcastsInDim S4x8x1024x64 (![0, 1, 2, 3] : Fin 4 → Fin S4x8x1024x64.rank)
  bcast_S_S4x8x1024x1024 : S_.BroadcastsInDim S4x8x1024x1024 (![] : Fin 0 → Fin S4x8x1024x1024.rank)
  reducesTo_S4x8x1024x1024_S4x8x1024_d3 : S4x8x1024x1024.ReducesTo [3] S4x8x1024
  bcast_S_S4x8x1024 : S_.BroadcastsInDim S4x8x1024 (![] : Fin 0 → Fin S4x8x1024.rank)
  bcast_S4x8x1024x1_S4x8x1024x1024_0_1_2_3 : S4x8x1024x1.BroadcastsInDim S4x8x1024x1024 (![0, 1, 2, 3] : Fin 4 → Fin S4x8x1024x1024.rank)
  dot_S4x8x1024x64_S4x8x1024x64_S4x8x1024x1024_3_3_2_2_01_01_wf : DotDims.WF S4x8x1024x64 S4x8x1024x64 S4x8x1024x1024 [3] [3] [2] [2] [0, 1] [0, 1]
  dot_S4x8x1024x1024_S4x8x1024x64_S4x8x1024x64_3_2_2_3_01_01_wf : DotDims.WF S4x8x1024x1024 S4x8x1024x64 S4x8x1024x64 [3] [2] [2] [3] [0, 1] [0, 1]

variable [Facts₀]

def dot_S4x8x1024x64_S4x8x1024x64_S4x8x1024x1024_3_3_2_2_01_01 : DotDims S4x8x1024x64 S4x8x1024x64 S4x8x1024x1024 where
  lhsContracting := [3]
  rhsContracting := [3]
  lhsNonContracting := [2]
  rhsNonContracting := [2]
  lhsBatch := [0, 1]
  rhsBatch := [0, 1]
  wf := dot_S4x8x1024x64_S4x8x1024x64_S4x8x1024x1024_3_3_2_2_01_01_wf
def dot_S4x8x1024x1024_S4x8x1024x64_S4x8x1024x64_3_2_2_3_01_01 : DotDims S4x8x1024x1024 S4x8x1024x64 S4x8x1024x64 where
  lhsContracting := [3]
  rhsContracting := [2]
  lhsNonContracting := [2]
  rhsNonContracting := [3]
  lhsBatch := [0, 1]
  rhsBatch := [0, 1]
  wf := dot_S4x8x1024x1024_S4x8x1024x64_S4x8x1024x64_3_2_2_3_01_01_wf

class Facts : Prop extends Facts₀ where

variable [Facts]
-- ==== Proof.LibERealSums.lean ====
import Idealize.ShloMosaic.PureOps.Ideal
import Mathlib.Algebra.BigOperators.Fin

/-!
# Finite sums and suprema of real families inside the extended reals

A family of extended reals all of whose members are (coercions of) real numbers has a real sum, and, over a
nonempty finite index set, a real supremum. These are the facts that let an identity between finite sums be
proved in `ℝ` and carried to `EReal`.
-/

namespace Cert.ERealSums

/-- The coercion `ℝ → EReal` commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals that are all real is the coercion of the real sum. -/
theorem sum_eq_coe {ι : Type*} (s : Finset ι) (F : ι → EReal) (f : ι → ℝ) (h : ∀ i ∈ s, F i = (f i : EReal)) :
    ∑ i ∈ s, F i = ((∑ i ∈ s, f i : ℝ) : EReal) := by
  rw [coe_finset_sum]; exact Finset.sum_congr rfl h

/-- Over a nonempty finite index set the supremum (taken from `⊥`) of a real family is one of its members,
    hence real. -/
theorem exists_sup_eq_coe {ι : Type*} (s : Finset ι) (hs : s.Nonempty) (f : ι → ℝ) :
    ∃ i ∈ s, s.sup (fun j => (f j : EReal)) = (f i : EReal) :=
  Finset.exists_mem_eq_sup s hs (fun j => (f j : EReal))

end Cert.ERealSums
-- ==== Proof.LibSoftmaxShift.lean ====
/-
  A softmax at the exact extended reals does not see a real shift of its scores.

  For real scores s_j over a nonempty finite index set and a real shift M,
      exp(s_j − M) / Σ_j' exp(s_j' − M)  =  exp(s_j) / Σ_j' exp(s_j'),
  both sides read with the extended reals' exponential and the division that answers an infinity only at a zero
  divisor: every exponential is a positive real, so both sums are positive reals, both quotients are real
  quotients, and exp(s − M) = exp(s) · exp(−M) cancels.  With it: the coercion of the reals commutes with a binary
  maximum; a quotient of reals by a nonzero real is the real quotient; and the maximum, taken from minus infinity,
  of finitely many reals over a nonempty index set is a real (what a row maximum subtracted before the exponential
  is, so that it qualifies as such a shift).
-/
import Idealize.ShloMosaic.PureOps.Ideal
import Mathlib.Algebra.BigOperators.Fin

noncomputable section

namespace Cert.Lib.SoftmaxShift

open Idealize.ShloMosaic

/-- The coercion `ℝ → EReal` commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals commutes with a binary maximum (it is monotone). -/
theorem coe_max (a b : ℝ) : ((max a b : ℝ) : EReal) = max (a : EReal) (b : EReal) :=
  EReal.coe_strictMono.monotone.map_max

/-- A quotient of reals with a nonzero divisor is the real quotient. -/
theorem div_coe_coe (a b : ℝ) (hb : b ≠ 0) : Ideal.div (a : EReal) (b : EReal) = ((a / b : ℝ) : EReal) := by
  rw [Ideal.div_coe hb, ← EReal.coe_mul, mul_one_div]

/-- The maximum, taken from minus infinity, of finitely many reals over a nonempty index set is a real. -/
theorem fold_max_real {ι : Type*} (s : Finset ι) (hs : s.Nonempty) (f : ι → EReal) (hf : ∀ a ∈ s, ∃ r : ℝ, f a = (r : EReal)) :
    ∃ r : ℝ, s.fold max ⊥ f = (r : EReal) := by
  classical
  induction s using Finset.induction_on with
  | empty => exact absurd hs (by simp)
  | insert a t ha ih =>
    rw [Finset.fold_insert ha]
    obtain ⟨ra, hra⟩ := hf a (Finset.mem_insert_self a t)
    by_cases ht : t.Nonempty
    · obtain ⟨r, hr⟩ := ih ht (fun b hb => hf b (Finset.mem_insert_of_mem hb))
      exact ⟨max ra r, by rw [hra, hr, coe_max]⟩
    · rw [Finset.not_nonempty_iff_eq_empty.mp ht, Finset.fold_empty, hra]
      exact ⟨ra, max_eq_left bot_le⟩

/-- THE SHIFT LAW: for real scores over a nonempty finite index type and a real shift, the shifted softmax weight is
    the unshifted one. -/
theorem softmax_shift {ι : Type*} [Fintype ι] [Nonempty ι] (s : ι → ℝ) (μ : ℝ) (j : ι) :
    Ideal.div (Ideal.exp ((s j : EReal) - (μ : EReal))) (∑ j', Ideal.exp ((s j' : EReal) - (μ : EReal)))
      = Ideal.div (Ideal.exp (s j : EReal)) (∑ j', Ideal.exp (s j' : EReal)) := by
  have hposK : 0 < ∑ j', Real.exp (s j') := Finset.sum_pos (fun _ _ => Real.exp_pos _) Finset.univ_nonempty
  have hposR : 0 < ∑ j', Real.exp (s j' - μ) := Finset.sum_pos (fun _ _ => Real.exp_pos _) Finset.univ_nonempty
  have eK : (∑ j', Ideal.exp (s j' : EReal)) = ((∑ j', Real.exp (s j') : ℝ) : EReal) := by
    rw [coe_sum]; exact Finset.sum_congr rfl fun j' _ => Ideal.exp_coe _
  have eR : (∑ j', Ideal.exp ((s j' : EReal) - (μ : EReal))) = ((∑ j', Real.exp (s j' - μ) : ℝ) : EReal) := by
    rw [coe_sum]; exact Finset.sum_congr rfl fun j' _ => by rw [← EReal.coe_sub, Ideal.exp_coe]
  rw [eK, eR, ← EReal.coe_sub, Ideal.exp_coe, Ideal.exp_coe, div_coe_coe _ _ hposK.ne', div_coe_coe _ _ hposR.ne']
  refine congrArg _ ?_
  have e1 : ∀ x : ℝ, Real.exp (x - μ) = Real.exp x * Real.exp (-μ) := fun x => by
    rw [sub_eq_add_neg, Real.exp_add]
  simp only [e1]
  rw [← Finset.sum_mul, mul_div_mul_right _ _ (Real.exp_pos _).ne']

end Cert.Lib.SoftmaxShift

end
-- ==== Proof.Literals.lean ====
/-
  The float literals the two programs spell, as the extended reals their patterns denote: the clamp under the
  norms (a positive real, about 1e-8), the kernel's factor 1/8, the reference's divisor 8, and the reference's
  minus infinity under the row maximum.
-/
import Idealize.ShloMosaic.PureOps.Ideal

noncomputable section

namespace Cert.Attn

open Idealize.ShloMosaic

/-- The pattern of 0.125 denotes the real 1/8. -/
theorem ofBits_eighth : Ideal.ofBits .f32 0x3E000000#32 = ((1 / 8 : ℝ) : EReal) := by
  simp [Ideal.ofBits, Ideal.ieee, -EReal.coe_mul]; norm_num

/-- The pattern of 8.0 denotes the real 8. -/
theorem ofBits_eight : Ideal.ofBits .f32 0x41000000#32 = ((8 : ℝ) : EReal) := by
  simp [Ideal.ofBits, Ideal.ieee, -EReal.coe_mul]; norm_num

/-- The all-ones exponent with the sign bit set and a zero fraction denotes minus infinity. -/
theorem ofBits_neg_inf : Ideal.ofBits .f32 0xFF800000#32 = ⊥ := by
  simp [Ideal.ofBits, Ideal.ieee]

/-- The clamp under the norms, 9.99999993e-9, denotes a positive real: (2^23 + 2870391) · 2^(-50). -/
theorem ofBits_eps : ∃ e : ℝ, 0 < e ∧ Ideal.ofBits .f32 0x322BCC77#32 = (e : EReal) := by
  refine ⟨((2 ^ 23 + 2870391 : ℕ) : ℝ) * (2 : ℝ) ^ ((100 : ℤ) - 127 - 23), by positivity, ?_⟩
  simp [Ideal.ofBits, Ideal.ieee, -EReal.coe_mul]

end Cert.Attn

end
-- ==== Proof.SoftmaxLaw.lean ====
/-
  Cosine-similarity attention weights of one head, in the two forms the programs compute them, on the extended
  reals, and the law that joins the forms when the query and key rows hold real numbers.

  A row x is divided by its clamped length max(sqrt(Σ x_d²), ε), ε > 0.  One form scales each normalized query
  entry by 1/8 before the inner products and takes exp(s_ij) / Σ_j' exp(s_ij'); the other divides each inner
  product by 8 and takes exp(s_ij − M) / Σ_j' exp(s_ij' − M) for a row shift M.  On real rows every intermediate
  value is a real number (a clamped length is at least ε, so no division is by zero; a sum of exponentials of
  finitely many reals over a nonempty index set is positive), the two scores are the same real
  (Σ (a_d/8)·b_d = (Σ a_d·b_d)/8), and a real shift cancels: exp(s − M) = exp(s)·exp(−M) in numerator and denominator.
-/
import Idealize.ShloMosaic.PureOps.Ideal
import Idealize.ShloMosaic.PureOps.Ideal.Laws
import proofs.«107504_j42030549959122_2_alg».proof.Proof.LibERealSums
import proofs.«107504_j42030549959122_2_alg».proof.Proof.LibSoftmaxShift
import proofs.«107504_j42030549959122_2_alg».proof.Proof.Literals

noncomputable section

namespace Cert.Attn

open Idealize.ShloMosaic Cert.Lib.SoftmaxShift

variable {N D : ℕ}

/-- A row's clamped Euclidean length, summed from nothing. -/
def nrmK (x : Fin D → EReal) : EReal :=
  max (Ideal.sqrt (∑ d, x d * x d)) (Ideal.ofBits .f32 0x322BCC77#32)

/-- The same, summed from the zero pattern. -/
def nrmR (x : Fin D → EReal) : EReal :=
  max (Ideal.sqrt (Ideal.ofBits .f32 0x00000000#32 + ∑ d, x d * x d)) (Ideal.ofBits .f32 0x322BCC77#32)

theorem nrmR_eq (x : Fin D → EReal) : nrmR x = nrmK x := by
  unfold nrmR nrmK; rw [Ideal.ofBits_zero_f32, zero_add]

/-- The score with 1/8 folded into the normalized query row. -/
def scoreK (Q K : Fin N → Fin D → EReal) (i j : Fin N) : EReal :=
  ∑ d, (Ideal.div (Q i d) (nrmK (Q i)) * Ideal.ofBits .f32 0x3E000000#32) * Ideal.div (K j d) (nrmK (K j))

/-- The score as the inner product of the normalized rows divided by 8. -/
def scoreR (Q K : Fin N → Fin D → EReal) (i j : Fin N) : EReal :=
  Ideal.div (∑ d, Ideal.div (Q i d) (nrmR (Q i)) * Ideal.div (K j d) (nrmR (K j))) (Ideal.ofBits .f32 0x41000000#32)

/-- The weights without a row shift. -/
def attnK (Q K : Fin N → Fin D → EReal) (i j : Fin N) : EReal :=
  Ideal.div (Ideal.exp (scoreK Q K i j)) (∑ j', Ideal.exp (scoreK Q K i j'))

/-- The weights with every score of the row shifted by `M`, the sum taken from the zero pattern. -/
def attnR (Q K : Fin N → Fin D → EReal) (M : EReal) (i j : Fin N) : EReal :=
  Ideal.div (Ideal.exp (scoreR Q K i j - M))
    (Ideal.ofBits .f32 0x00000000#32 + ∑ j', Ideal.exp (scoreR Q K i j' - M))

/-- The weighted sum of the value rows. -/
def outOf (A : Fin N → Fin N → EReal) (V : Fin N → Fin D → EReal) (i : Fin N) (d : Fin D) : EReal :=
  ∑ j, A i j * V j d

/-- The clamped length of a real row is a positive real. -/
theorem nrmK_real (x : Fin D → EReal) (y : Fin D → ℝ) (h : ∀ d, x d = (y d : EReal)) :
    ∃ n : ℝ, 0 < n ∧ nrmK x = (n : EReal) := by
  obtain ⟨e, he, hE⟩ := ofBits_eps
  refine ⟨max (Real.sqrt (∑ d, y d * y d)) e, lt_max_of_lt_right he, ?_⟩
  unfold nrmK
  rw [hE, ERealSums.sum_eq_coe Finset.univ (fun d => x d * x d) (fun d => y d * y d)
    (fun d _ => by rw [h d, EReal.coe_mul])]
  rw [Ideal.sqrt_coe, if_neg (not_lt.2 (Finset.sum_nonneg fun d _ => mul_self_nonneg _)), coe_max]

/-- On real rows both scores are one real number. -/
theorem score_real (Q K : Fin N → Fin D → EReal) (hQ : ∀ i d, ∃ r : ℝ, Q i d = (r : EReal))
    (hK : ∀ i d, ∃ r : ℝ, K i d = (r : EReal)) :
    ∃ s : Fin N → Fin N → ℝ, ∀ i j, scoreK Q K i j = (s i j : EReal) ∧ scoreR Q K i j = (s i j : EReal) := by
  choose q hq using hQ
  choose k hk using hK
  choose nq hnq0 hnq using fun i => nrmK_real (Q i) (q i) (hq i)
  choose nk hnk0 hnk using fun j => nrmK_real (K j) (k j) (hk j)
  refine ⟨fun i j => ∑ d, (q i d / nq i * (1 / 8)) * (k j d / nk j), fun i j => ⟨?_, ?_⟩⟩
  · unfold scoreK
    refine ERealSums.sum_eq_coe Finset.univ _ _ fun d _ => ?_
    rw [hq i d, hk j d, hnq i, hnk j, ofBits_eighth, div_coe_coe _ _ (hnq0 i).ne', div_coe_coe _ _ (hnk0 j).ne',
      ← EReal.coe_mul, ← EReal.coe_mul]
  · unfold scoreR
    rw [nrmR_eq, nrmR_eq, ofBits_eight,
      ERealSums.sum_eq_coe Finset.univ _ (fun d => (q i d / nq i) * (k j d / nk j)) (fun d _ => by
        rw [hq i d, hk j d, hnq i, hnk j, div_coe_coe _ _ (hnq0 i).ne', div_coe_coe _ _ (hnk0 j).ne', ← EReal.coe_mul]),
      div_coe_coe _ _ (by norm_num : (8 : ℝ) ≠ 0)]
    refine congrArg _ ?_
    rw [Finset.sum_div]
    exact Finset.sum_congr rfl fun d _ => by ring

/-- THE LAW: on real query and key rows, over a nonempty row set, the shifted form with a real shift is the
    unshifted form. -/
theorem attnR_eq_attnK (hN : 0 < N) (Q K : Fin N → Fin D → EReal) (hQ : ∀ i d, ∃ r : ℝ, Q i d = (r : EReal))
    (hK : ∀ i d, ∃ r : ℝ, K i d = (r : EReal)) (M : EReal) (hM : ∃ r : ℝ, M = (r : EReal)) (i j : Fin N) :
    attnR Q K M i j = attnK Q K i j := by
  obtain ⟨s, hs⟩ := score_real Q K hQ hK
  obtain ⟨μ, rfl⟩ := hM
  haveI : Nonempty (Fin N) := ⟨⟨0, hN⟩⟩
  have hK' : ∀ j', scoreK Q K i j' = (s i j' : EReal) := fun j' => (hs i j').1
  have hR' : ∀ j', scoreR Q K i j' = (s i j' : EReal) := fun j' => (hs i j').2
  unfold attnR attnK
  rw [Ideal.ofBits_zero_f32, zero_add]
  simp only [hK', hR']
  exact softmax_shift (s i) μ j

/-- Every shifted-form score of a real row pair is a real number (what the row maximum is taken over). -/
theorem scoreR_real (Q K : Fin N → Fin D → EReal) (hQ : ∀ i d, ∃ r : ℝ, Q i d = (r : EReal))
    (hK : ∀ i d, ∃ r : ℝ, K i d = (r : EReal)) (i j : Fin N) : ∃ r : ℝ, scoreR Q K i j = (r : EReal) := by
  obtain ⟨s, hs⟩ := score_real Q K hQ hK
  exact ⟨s i j, (hs i j).2⟩

end Cert.Attn

end
-- ==== Proof.AttnSpec.lean ====
/-
  The two result arrays as functions of the argument arrays q, k, v : [4, 1024, 8, 64] (batch, position, head,
  channel).  Head (b, h) has query rows q[b, i, h, ·], key rows k[b, j, h, ·] and value rows v[b, j, h, ·];
  the weights array [4, 8, 1024, 1024] holds at (b, h, i, j) the attention weight of row i on row j, and the
  output array [4, 8, 1024, 64] at (b, h, i, d) the weighted sum Σ_j weight(i, j) · v[b, j, h, d].
-/
import Idealize.ShloMosaic.Lib.ValueIdx
import proofs.«107504_j42030549959122_2_alg».proof.Proof.SoftmaxLaw

noncomputable section

namespace Cert.Attn

open Idealize.ShloMosaic Idealize.ShloMosaic.ValueIdx

/-- The rows of head (b, h) of an array laid out [batch, position, head, channel]. -/
def rows (x : (⟨4, ![4, 1024, 8, 64]⟩ : Shape).Idx → EReal) (b : Fin 4) (h : Fin 8) : Fin 1024 → Fin 64 → EReal :=
  fun i d => x (ix4 b i h d)

/-- The attention weights, all heads. -/
def Gattn (q k : (⟨4, ![4, 1024, 8, 64]⟩ : Shape).Idx → EReal) : (⟨4, ![4, 8, 1024, 1024]⟩ : Shape).Idx → EReal :=
  fun y => attnK (rows q (y 0) (y 1)) (rows k (y 0) (y 1)) (y 2) (y 3)

/-- The attention output, all heads. -/
def Gout (q k v : (⟨4, ![4, 1024, 8, 64]⟩ : Shape).Idx → EReal) : (⟨4, ![4, 8, 1024, 64]⟩ : Shape).Idx → EReal :=
  fun y => outOf (attnK (rows q (y 0) (y 1)) (rows k (y 0) (y 1))) (rows v (y 0) (y 1)) (y 2) (y 3)

theorem Gattn_ix4 (q k : (⟨4, ![4, 1024, 8, 64]⟩ : Shape).Idx → EReal) (b : Fin 4) (h : Fin 8) (i j : Fin 1024) :
    Gattn q k (ix4 b h i j) = attnK (rows q b h) (rows k b h) i j := rfl

theorem Gout_ix4 (q k v : (⟨4, ![4, 1024, 8, 64]⟩ : Shape).Idx → EReal) (b : Fin 4) (h : Fin 8) (i : Fin 1024) (d : Fin 64) :
    Gout q k v (ix4 b h i d) = outOf (attnK (rows q b h) (rows k b h)) (rows v b h) i d := rfl

/-- Every entry of the array is a real number. -/
def AllReal (x : (⟨4, ![4, 1024, 8, 64]⟩ : Shape).Idx → EReal) : Prop := ∀ y, ∃ r : ℝ, x y = (r : EReal)

theorem AllReal.rows {x : (⟨4, ![4, 1024, 8, 64]⟩ : Shape).Idx → EReal} (hx : AllReal x) (b : Fin 4) (h : Fin 8) :
    ∀ i d, ∃ r : ℝ, rows x b h i d = (r : EReal) := fun i d => hx (ix4 b i h d)

end Cert.Attn

end
-- ==== Proof.LibPlainMatmul.lean ====
/-
  A plain matrix product read at an index.

  For dimension numbers that contract the left operand's second axis with the right operand's first and have no
  batch axes, the matrix unit's product of `l : [M, K]` and `r : [K, N]` into a zero accumulator is, at `(p, q)`,
  the finite sum `Σ_k l[p, k] · r[k, q]` in the extended reals.  The four coordinate facts of the dimension numbers
  are hypotheses: they are decided, or read off the record, for a program's literal record.
-/
import Idealize.ShloMosaic.PureOps.Ideal.Laws
import Idealize.ShloMosaic.Lib.ValueIdx

noncomputable section

namespace Idealize.ShloMosaic.PlainMatmul

open Idealize.ShloMosaic Idealize.ShloMosaic.ValueIdx

/-- The sum over a one-axis contraction index is the sum over its one coordinate. -/
theorem contr_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The matrix unit's product into a zero accumulator, read at `(p, q)`. -/
theorem matmul_zero_apply {M K N : Nat} {φ₁ φ₂ : FTy} (d : DotDims ⟨2, ![M, K]⟩ ⟨2, ![K, N]⟩ ⟨2, ![M, N]⟩)
    (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : FVec Ideal ⟨2, ![M, K]⟩ φ₁) (r : FVec Ideal ⟨2, ![K, N]⟩ φ₂) (p : Fin M) (q : Fin N) :
    matmul d prec l r (constant (F := Ideal) ⟨2, ![M, N]⟩ .f32 0x00000000#32) (ix2 p q)
      = ∑ k : Fin K, l (ix2 p k) * r (ix2 k q) := by
  exact (Ideal.matmul_constant_zero_apply d prec l r (ix2 p q)).trans (contr_sum d hr hs hl0 hl1 hr0 hr1 l r p q)

end Idealize.ShloMosaic.PlainMatmul

end
-- ==== Proof.LibKeepdimsColumn.lean ====
/-
  The keepdims COLUMN forms of two layout operations, read at an index given by coordinates: what a sum over the last
  axis with the reduced axis kept (a column of per-row values) needs when the column is built from a vector and then
  spread over the columns of a matrix.
    * `shapeCast_a_a1_apply`: an `[a]` vector cast to an `[a, 1]` column reads, at `(i, u)`, the vector at `i`.
    * `broadcastTo_a1_ab_apply`: an `[a, 1]` column broadcast to `[a, b]` reads, at `(i, c)`, the column at `(i, 0)`.
  Both are the library's general read-at-an-index lemmas with the coordinate arithmetic done once, for any extents.
-/
import Idealize.ShloMosaic.Lib.Pipeline.Value
import Idealize.ShloMosaic.Lib.ValueIdx

namespace Cert.Lib.KeepdimsColumn

open Idealize.ShloMosaic Idealize.ShloMosaic.ValueIdx

variable {α : Type}

/-- An `[a]` vector cast to an `[a, 1]` column reads, at `(i, u)`, the vector at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, c)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Cert.Lib.KeepdimsColumn
-- ==== Proof.KernelHead.lean ====
/-
  One head of the kernel body, read at an index, at the exact extended reals.

  The body takes a head's [1024, 64] query, key and value slices out of the block's 128 columns, divides each query
  and key row by its clamped length (the row sum of squares along the lanes, kept as a column and spread back over the
  row), scales the query rows by 1/8, multiplies the scaled query rows with the transposed key rows on the matrix unit,
  exponentiates, divides each row by its lane sum, and multiplies the weights with the value rows.  The roundings to
  bf16 on the way into the matrix unit are the identity here.  Read at (i, j) the weights are the unshifted form of
  the attention weights of the head's rows, and the output at (i, d) is Σ_j weight(i, j) · value(j, d).
-/
import proofs.«107504_j42030549959122_2_alg».proof.Proof.Gen.KernelIdeal.Skeleton
import proofs.«107504_j42030549959122_2_alg».proof.Proof.AttnSpec
import proofs.«107504_j42030549959122_2_alg».proof.Proof.LibPlainMatmul
import proofs.«107504_j42030549959122_2_alg».proof.Proof.LibKeepdimsColumn
import Idealize.ShloMosaic.Lib.Pipeline.Value
import Idealize.ShloMosaic.Lib.ValueIdx
import Idealize.ShloMosaic.PureOps.Ideal.Laws

noncomputable section

namespace Cert.KernelIdeal.HeadValue

open Cert.KernelIdeal Cert.KernelIdeal.Gen Idealize.ShloMosaic Idealize.ShloMosaic.ValueIdx
open Cert.Attn Cert.Lib.KeepdimsColumn

/-! ## The chain, piece by piece -/

/-- Each row's clamped length, as a column. -/
def rowLen (x : FVec Ideal S1024x64 .f32) : FVec Ideal S1024x1 .f32 :=
  maximumf (sqrt (shapeCast S1024x1 (multiReduction .add [1] S1024 (mulf x x) 0x00000000#32 reduces_S1024x64_S1024 (.inl rfl) rfl) shapeCasts_S1024_S1024x1))
    (broadcast S1024x1 (Scalar.ofBits .f32 0x322BCC77#32))

/-- The key rows, normalized. -/
def knRows (x : FVec Ideal S1024x64 .f32) : FVec Ideal S1024x64 .f32 :=
  divf x (broadcastTo S1024x64 (rowLen x) broadcasts_S1024x1_S1024x64)

/-- The query rows, normalized and scaled by 1/8. -/
def qnRows (x : FVec Ideal S1024x64 .f32) : FVec Ideal S1024x64 .f32 :=
  mulf (divf x (broadcastTo S1024x64 (rowLen x) broadcasts_S1024x1_S1024x64)) (broadcast S1024x64 (Scalar.ofBits .f32 0x3E000000#32))

/-- The scores: scaled query rows against transposed key rows, into a zero accumulator. -/
def scores (q k : FVec Ideal S1024x64 .f32) : FVec Ideal S1024x1024 .f32 :=
  matmul dot_S1024x64_S64x1024_S1024x1024_1_0_0_1_n_n none (truncf .bf16 (qnRows q) bitsLt_bf16_f32)
    (transpose S64x1024 [1, 0] (truncf .bf16 (knRows k) bitsLt_bf16_f32) transposes_S1024x64_p1_0_S64x1024)
    (constant S1024x1024 .f32 0x00000000#32)

/-- The weights of a score matrix: exponentials over their row sums. -/
def weights (s : FVec Ideal S1024x1024 .f32) : FVec Ideal S1024x1024 .f32 :=
  divf (exp s) (broadcastTo S1024x1024 (shapeCast S1024x1 (multiReduction .add [1] S1024 (exp s) 0x00000000#32 reduces_S1024x1024_S1024 (.inl rfl) rfl) shapeCasts_S1024_S1024x1) broadcasts_S1024x1_S1024x1024)

/-- A head's weights from its query and key slices. -/
def headAttn (q k : FVec Ideal S1024x64 .f32) : FVec Ideal S1024x1024 .f32 := weights (scores q k)

/-- A head's output from its weights (already rounded for the matrix unit) and its value slice. -/
def headOut (A : FVec Ideal S1024x1024 .bf16) (v : FVec Ideal S1024x64 .f32) : FVec Ideal S1024x64 .f32 :=
  matmul dot_S1024x1024_S1024x64_S1024x64_1_0_0_1_n_n none A (truncf .bf16 v bitsLt_bf16_f32) (constant S1024x64 .f32 0x00000000#32)

/-! ## The body's payloads are these pieces -/

theorem pay6_eq (v0 v2 : Vec Ideal S1x1024x128 .f32) :
    k0_pay6 (F := Ideal) v0 v2 = headAttn (extractStridedSlice S1024x64 ![0, 0] (k0_pay2 v0) slices_S1024x128_o0_0_S1024x64)
      (extractStridedSlice S1024x64 ![0, 0] (k0_pay3 v2) slices_S1024x128_o0_0_S1024x64) := rfl

theorem pay10_eq (v1 v3 : FVec Ideal S1024x128 .f32) :
    k0_pay10 (F := Ideal) v1 v3 = headAttn (extractStridedSlice S1024x64 ![0, 64] v1 slices_S1024x128_o0_64_S1024x64)
      (extractStridedSlice S1024x64 ![0, 64] v3 slices_S1024x128_o0_64_S1024x64) := rfl

theorem pay8_eq (v8 : FVec Ideal S1024x64 .f32) (v35 : FVec Ideal S1024x1024 .f32) :
    k0_pay8 (F := Ideal) v8 v35 = shapeCast S1x1x1024x64 (headOut (truncf .bf16 v35 bitsLt_bf16_f32) v8) shapeCasts_S1024x64_S1x1x1024x64 := rfl

theorem pay1_eq (v47 : FVec Ideal S1024x64 .f32) (v78 : FVec Ideal S1024x1024 .bf16) :
    k0_pay1 (F := Ideal) v47 v78 = shapeCast S1x1x1024x64 (headOut v78 v47) shapeCasts_S1024x64_S1x1x1024x64 := rfl

/-! ## Each piece at an index -/

/-- A lane sum of a [1024, K] array kept as a column, at row i: the sum of the row. -/
theorem rowSum_apply {K : ℕ} (src : FVec Ideal ⟨2, ![1024, K]⟩ .f32) (h : (⟨2, ![1024, K]⟩ : Shape).Reduces [1] S1024)
    (hφ : FKind.Formats .f32) (hacc : (0x00000000#32 : BitVec 32) = FKind.add.neutral .f32 hφ) (i : Fin 1024) (u : Fin 1) :
    shapeCast S1024x1 (multiReduction .add [1] S1024 src 0x00000000#32 h hφ hacc) shapeCasts_S1024_S1024x1 (ix2 i u)
      = ∑ k : Fin K, src (ix2 i k) := by
  refine (shapeCast_a_a1_apply _ shapeCasts_S1024_S1024x1 i u).trans ?_
  refine (Ideal.multiReduction_add_single src 0x00000000#32 h hφ hacc (ix1 i)).trans ?_
  refine Finset.sum_congr rfl fun k _ => congrArg src ?_
  exact funext fun a => Fin.ext (by match a with | ⟨0, _⟩ => rfl | ⟨1, _⟩ => rfl)

theorem rowLen_apply (x : FVec Ideal S1024x64 .f32) (i : Fin 1024) (u : Fin 1) :
    rowLen x (ix2 i u) = nrmK (fun d => x (ix2 i d)) := by
  show max (Ideal.sqrt (shapeCast S1024x1 (multiReduction .add [1] S1024 (mulf x x) 0x00000000#32 reduces_S1024x64_S1024 (.inl rfl) rfl) shapeCasts_S1024_S1024x1 (ix2 i u)))
    (Ideal.ofBits .f32 0x322BCC77#32) = _
  rw [rowSum_apply (mulf x x) reduces_S1024x64_S1024 (.inl rfl) rfl i u]
  rfl

theorem knRows_apply (x : FVec Ideal S1024x64 .f32) (j : Fin 1024) (d : Fin 64) :
    knRows x (ix2 j d) = Ideal.div (x (ix2 j d)) (nrmK (fun d' => x (ix2 j d'))) := by
  show Ideal.div (x (ix2 j d)) (broadcastTo S1024x64 (rowLen x) broadcasts_S1024x1_S1024x64 (ix2 j d)) = _
  exact congrArg (Ideal.div _) ((broadcastTo_a1_ab_apply (rowLen x) broadcasts_S1024x1_S1024x64 j d).trans (rowLen_apply x j 0))

theorem qnRows_apply (x : FVec Ideal S1024x64 .f32) (i : Fin 1024) (d : Fin 64) :
    qnRows x (ix2 i d) = Ideal.div (x (ix2 i d)) (nrmK (fun d' => x (ix2 i d'))) * Ideal.ofBits .f32 0x3E000000#32 := by
  show Ideal.div (x (ix2 i d)) (broadcastTo S1024x64 (rowLen x) broadcasts_S1024x1_S1024x64 (ix2 i d)) * Ideal.ofBits .f32 0x3E000000#32 = _
  exact congrArg (fun z => Ideal.div (x (ix2 i d)) z * Ideal.ofBits .f32 0x3E000000#32)
    ((broadcastTo_a1_ab_apply (rowLen x) broadcasts_S1024x1_S1024x64 i d).trans (rowLen_apply x i 0))

theorem scores_apply (q k : FVec Ideal S1024x64 .f32) (i j : Fin 1024) :
    scores q k (ix2 i j) = scoreK (fun i' d => q (ix2 i' d)) (fun j' d => k (ix2 j' d)) i j := by
  refine (PlainMatmul.matmul_zero_apply dot_S1024x64_S64x1024_S1024x1024_1_0_0_1_n_n none rfl rfl
    (fun y c => by
      unfold DotDims.lhsIdx
      rw [dif_neg (show ¬(0 : Fin S1024x64.rank) ∈ dot_S1024x64_S64x1024_S1024x1024_1_0_0_1_n_n.lhsBatch by decide),
        dif_pos (show (0 : Fin S1024x64.rank) ∈ dot_S1024x64_S64x1024_S1024x1024_1_0_0_1_n_n.lhsNonContracting by decide)]
      rfl)
    (fun y c => dot_S1024x64_S64x1024_S1024x1024_1_0_0_1_n_n.lhsIdx_val_of_single rfl y c)
    (fun y c => dot_S1024x64_S64x1024_S1024x1024_1_0_0_1_n_n.rhsIdx_val_of_single rfl y c)
    (fun y c => by
      unfold DotDims.rhsIdx
      rw [dif_neg (show ¬(1 : Fin S64x1024.rank) ∈ dot_S1024x64_S64x1024_S1024x1024_1_0_0_1_n_n.rhsBatch by decide),
        dif_pos (show (1 : Fin S64x1024.rank) ∈ dot_S1024x64_S64x1024_S1024x1024_1_0_0_1_n_n.rhsNonContracting by decide)]
      rfl)
    _ _ i j).trans ?_
  unfold scoreK
  refine Finset.sum_congr rfl fun d _ => ?_
  have et : transpose S64x1024 [1, 0] (truncf .bf16 (knRows k) bitsLt_bf16_f32) transposes_S1024x64_p1_0_S64x1024 (ix2 d j)
      = knRows k (ix2 j d) :=
    transpose_apply [1, 0] _ transposes_S1024x64_p1_0_S64x1024 (ix2 d j) (ix2 j d) (fun b => by
      match b with | ⟨0, _⟩ => rfl | ⟨1, _⟩ => rfl)
  rw [et, knRows_apply]
  show qnRows q (ix2 i d) * _ = _
  rw [qnRows_apply]

theorem weights_apply (s : FVec Ideal S1024x1024 .f32) (i j : Fin 1024) :
    weights s (ix2 i j) = Ideal.div (Ideal.exp (s (ix2 i j))) (∑ j' : Fin 1024, Ideal.exp (s (ix2 i j'))) := by
  show Ideal.div (Ideal.exp (s (ix2 i j))) (broadcastTo S1024x1024 (shapeCast S1024x1 (multiReduction .add [1] S1024 (exp s) 0x00000000#32 reduces_S1024x1024_S1024 (.inl rfl) rfl) shapeCasts_S1024_S1024x1) broadcasts_S1024x1_S1024x1024 (ix2 i j)) = _
  refine congrArg (Ideal.div _) ((broadcastTo_a1_ab_apply _ broadcasts_S1024x1_S1024x1024 i j).trans ?_)
  exact rowSum_apply (exp s) reduces_S1024x1024_S1024 (.inl rfl) rfl i 0

/-- A HEAD'S WEIGHTS at (i, j): the unshifted form on the head's rows. -/
theorem headAttn_apply (q k : FVec Ideal S1024x64 .f32) (i j : Fin 1024) :
    headAttn q k (ix2 i j) = attnK (fun i' d => q (ix2 i' d)) (fun j' d => k (ix2 j' d)) i j := by
  unfold headAttn attnK
  rw [weights_apply]
  simp only [scores_apply]

/-- A HEAD'S OUTPUT at (i, d): the weights' row against the value column. -/
theorem headOut_apply (A : FVec Ideal S1024x1024 .bf16) (v : FVec Ideal S1024x64 .f32) (i : Fin 1024) (d : Fin 64) :
    headOut A v (ix2 i d) = ∑ j : Fin 1024, A (ix2 i j) * v (ix2 j d) := by
  refine (PlainMatmul.matmul_zero_apply dot_S1024x1024_S1024x64_S1024x64_1_0_0_1_n_n none rfl rfl
    (fun y c => by
      unfold DotDims.lhsIdx
      rw [dif_neg (show ¬(0 : Fin S1024x1024.rank) ∈ dot_S1024x1024_S1024x64_S1024x64_1_0_0_1_n_n.lhsBatch by decide),
        dif_pos (show (0 : Fin S1024x1024.rank) ∈ dot_S1024x1024_S1024x64_S1024x64_1_0_0_1_n_n.lhsNonContracting by decide)]
      rfl)
    (fun y c => dot_S1024x1024_S1024x64_S1024x64_1_0_0_1_n_n.lhsIdx_val_of_single rfl y c)
    (fun y c => dot_S1024x1024_S1024x64_S1024x64_1_0_0_1_n_n.rhsIdx_val_of_single rfl y c)
    (fun y c => by
      unfold DotDims.rhsIdx
      rw [dif_neg (show ¬(1 : Fin S1024x64.rank) ∈ dot_S1024x1024_S1024x64_S1024x64_1_0_0_1_n_n.rhsBatch by decide),
        dif_pos (show (1 : Fin S1024x64.rank) ∈ dot_S1024x1024_S1024x64_S1024x64_1_0_0_1_n_n.rhsNonContracting by decide)]
      rfl)
    _ _ i d).trans ?_
  rfl

/-- A head's 64 columns out of a block's 128, at (i, d): the block's column o + d of row i. -/
theorem slice_apply (o : ℕ) (P : Vec Ideal S1x1024x128 .f32) (hs : S1024x128.Slices ![0, o] S1024x64) (i : Fin 1024) (d : Fin 64)
    (c : Fin 128) (hc : c.val = o + d.val) :
    extractStridedSlice S1024x64 ![0, o] (shapeCast S1024x128 P shapeCasts_S1x1024x128_S1024x128) hs (ix2 i d)
      = P (ix3 (0 : Fin 1) i c) := by
  refine (extractStridedSlice_apply ![0, o] _ hs (ix2 i d) (ix2 i c) (fun a => by
    match a with
    | ⟨0, _⟩ => show i.val = 0 + i.val; omega
    | ⟨1, _⟩ => exact hc)).trans ?_
  exact shapeCast_apply P shapeCasts_S1x1024x128_S1024x128 (ix2 i c) (ix3 (0 : Fin 1) i c) (by
    rw [Shape.rowMajor_val_three, Shape.rowMajor_val_two]
    show ((0 : ℕ) * 1024 + i.val) * 128 + c.val = i.val * 128 + c.val
    omega)

/-- A [1024, n] value stored as a [1, 1, 1024, n] piece, at a piece index: the value at its last two coordinates. -/
theorem cast_unit2_apply {n : ℕ} (w : (⟨2, ![1024, n]⟩ : Shape).Idx → EReal) (h : (⟨2, ![1024, n]⟩ : Shape).ShapeCasts ⟨4, ![1, 1, 1024, n]⟩)
    (u0 u1 : Fin 1) (i : Fin 1024) (d : Fin n) :
    shapeCast ⟨4, ![1, 1, 1024, n]⟩ w h (ix4 u0 u1 i d) = w (ix2 i d) :=
  shapeCast_apply w h (ix4 u0 u1 i d) (ix2 i d) (by
    rw [Shape.rowMajor_val_two, Shape.rowMajor_val_four]
    show i.val * n + d.val = (((u0.val * 1 + u1.val) * 1024 + i.val) * n) + d.val
    have h0 : u0.val = 0 := by omega
    have h1 : u1.val = 0 := by omega
    rw [h0, h1]; simp)

end Cert.KernelIdeal.HeadValue

end
-- ==== Proof.KernelBlock.lean ====
/-
  What one grid point leaves in its two output blocks, index by index, from its three input blocks.

  An input block is [1, 1024, 128]: 1024 positions by the 128 channels of two adjacent heads; head hh of the pair
  has channels hh·64 … hh·64 + 63.  The weights block [1, 2, 1024, 1024] holds at (·, hh, i, j) the weight of row i
  on row j of head hh, and the output block [1, 2, 1024, 64] at (·, hh, i, d) that head's weighted sum of value rows.
  The body writes each head's two pieces through rectangles that tile the blocks.
-/
import proofs.«107504_j42030549959122_2_alg».proof.Proof.Gen.KernelIdeal.Value
import proofs.«107504_j42030549959122_2_alg».proof.Proof.KernelHead

noncomputable section

namespace Cert.KernelIdeal.BlockValue

open Cert.KernelIdeal Cert.KernelIdeal.Gen Idealize.ShloMosaic Idealize.ShloMosaic.ValueIdx
open Cert.Attn Cert.KernelIdeal.HeadValue

/-- Head hh's rows of an input block. -/
def blockRows (P : Vec Ideal S1x1024x128 .f32) (hh : Fin 2) : Fin 1024 → Fin 64 → EReal :=
  fun i d => P (ix3 (0 : Fin 1) i (⟨hh.val * 64 + d.val, by have := hh.isLt; have := d.isLt; omega⟩ : Fin 128))

theorem slice0_rows (P : Vec Ideal S1x1024x128 .f32) :
    (fun (i : Fin 1024) (d : Fin 64) => extractStridedSlice S1024x64 ![0, 0] (k0_pay2 (F := Ideal) P) slices_S1024x128_o0_0_S1024x64 (ix2 i d))
      = blockRows P ⟨0, by decide⟩ :=
  funext fun i => funext fun d => slice_apply 0 P slices_S1024x128_o0_0_S1024x64 i d _ (by show 0 * 64 + d.val = 0 + d.val; omega)

theorem slice64_rows (P : Vec Ideal S1x1024x128 .f32) :
    (fun (i : Fin 1024) (d : Fin 64) => extractStridedSlice S1024x64 ![0, 64] (shapeCast S1024x128 P shapeCasts_S1x1024x128_S1024x128) slices_S1024x128_o0_64_S1024x64 (ix2 i d))
      = blockRows P ⟨1, by decide⟩ :=
  funext fun i => funext fun d => slice_apply 64 P slices_S1024x128_o0_64_S1024x64 i d _ (by show 1 * 64 + d.val = 64 + d.val; omega)

/-- Head hh's weights, as the body computes them from the query and key blocks. -/
theorem fam_apply (P0 P1 : Vec Ideal S1x1024x128 .f32) (hh : Fin 2) (i j : Fin 1024) :
    Value.Fam4_0 (F := Ideal) P0 P1 hh (ix2 i j) = attnK (blockRows P0 hh) (blockRows P1 hh) i j := by
  match hh with
  | ⟨0, _⟩ =>
    show k0_pay6 (F := Ideal) P0 P1 (ix2 i j) = _
    rw [pay6_eq, headAttn_apply]
    show attnK (fun i' d => extractStridedSlice S1024x64 ![0, 0] (k0_pay2 (F := Ideal) P0) slices_S1024x128_o0_0_S1024x64 (ix2 i' d))
      (fun j' d => extractStridedSlice S1024x64 ![0, 0] (k0_pay2 (F := Ideal) P1) slices_S1024x128_o0_0_S1024x64 (ix2 j' d)) i j = _
    rw [slice0_rows, slice0_rows]
  | ⟨1, _⟩ =>
    show k0_pay10 (F := Ideal) (shapeCast S1024x128 P0 shapeCasts_S1x1024x128_S1024x128) (shapeCast S1024x128 P1 shapeCasts_S1x1024x128_S1024x128) (ix2 i j) = _
    rw [pay10_eq, headAttn_apply, slice64_rows, slice64_rows]

/-- THE WEIGHTS BLOCK at (·, hh, i, j). -/
theorem E4_apply (P0 P1 : Vec Ideal S1x1024x128 .f32) (u : Fin 1) (hh : Fin 2) (i j : Fin 1024) :
    Value.E4 (F := Ideal) P0 P1 (ix4 u hh i j) = attnK (blockRows P0 hh) (blockRows P1 hh) i j := by
  have hs : Value.sel4 (ix4 u hh i j) = hh := Fin.ext rfl
  have hi : Value.ix4_0 (ix4 u hh i j) = ix2 i j := funext fun a => Fin.ext (by match a with | ⟨0, _⟩ => rfl | ⟨1, _⟩ => rfl)
  show Value.Fam4_0 (F := Ideal) P0 P1 (Value.sel4 (ix4 u hh i j)) (Value.ix4_0 (ix4 u hh i j)) = _
  rw [hs, hi]
  exact fam_apply P0 P1 hh i j

/-- The output block as one function of the input blocks. -/
def E3 (P0 P1 P2 : Vec Ideal S1x1024x128 .f32) : Vec Ideal S1x2x1024x64 .f32 :=
  fun y => outOf (attnK (blockRows P0 (y 1)) (blockRows P1 (y 1))) (blockRows P2 (y 1)) (y 2) (y 3)

theorem E3_apply (P0 P1 P2 : Vec Ideal S1x1024x128 .f32) (u : Fin 1) (hh : Fin 2) (i : Fin 1024) (d : Fin 64) :
    E3 P0 P1 P2 (ix4 u hh i d) = outOf (attnK (blockRows P0 hh) (blockRows P1 hh)) (blockRows P2 hh) i d := rfl

/-- Head 0's output piece at its index is the output block at the block index under it. -/
theorem piece3_0 (P0 P1 P2 : Vec Ideal S1x1024x128 .f32) (x : S1x1x1024x64.Idx) :
    k0_pay8 (F := Ideal) (k0_pay5 P2) (k0_pay6 P0 P1) x = E3 P0 P1 P2 (r0_2.idx x) := by
  obtain ⟨u0, u1, i, d, rfl⟩ : ∃ (u0 u1 : Fin 1) (i : Fin 1024) (d : Fin 64), x = ix4 u0 u1 i d := ⟨_, _, _, _, eq_ix4 x⟩
  have hidx : r0_2.idx (ix4 u0 u1 i d) = ix4 (0 : Fin 1) (⟨0, by decide⟩ : Fin 2) i d := funext fun a => Fin.ext (by
    match a with
    | ⟨0, _⟩ => show 0 + 1 * u0.val = 0; omega
    | ⟨1, _⟩ => show 0 + 1 * u1.val = 0; omega
    | ⟨2, _⟩ => show 0 + 1 * i.val = i.val; omega
    | ⟨3, _⟩ => show 0 + 1 * d.val = d.val; omega)
  rw [hidx, E3_apply, pay8_eq]
  refine (cast_unit2_apply _ shapeCasts_S1024x64_S1x1x1024x64 u0 u1 i d).trans ?_
  rw [headOut_apply]
  unfold outOf
  refine Finset.sum_congr rfl fun j _ => ?_
  have ea : truncf .bf16 (k0_pay6 (F := Ideal) P0 P1) bitsLt_bf16_f32 (ix2 i j) = attnK (blockRows P0 ⟨0, by decide⟩) (blockRows P1 ⟨0, by decide⟩) i j :=
    fam_apply P0 P1 ⟨0, by decide⟩ i j
  have ev : k0_pay5 (F := Ideal) P2 (ix2 j d) = blockRows P2 ⟨0, by decide⟩ j d :=
    slice_apply 0 P2 slices_S1024x128_o0_0_S1024x64 j d _ (by show 0 * 64 + d.val = 0 + d.val; omega)
  rw [ea, ev]

/-- Head 1's output piece at its index is the output block at the block index under it. -/
theorem piece3_1 (P0 P1 P2 : Vec Ideal S1x1024x128 .f32) (x : S1x1x1024x64.Idx) :
    k0_pay1 (F := Ideal) (k0_pay9 (k0_pay4 P2)) (k0_pay12 (k0_pay2 P0) (k0_pay3 P1)) x = E3 P0 P1 P2 (r0_4.idx x) := by
  obtain ⟨u0, u1, i, d, rfl⟩ : ∃ (u0 u1 : Fin 1) (i : Fin 1024) (d : Fin 64), x = ix4 u0 u1 i d := ⟨_, _, _, _, eq_ix4 x⟩
  have hidx : r0_4.idx (ix4 u0 u1 i d) = ix4 (0 : Fin 1) (⟨1, by decide⟩ : Fin 2) i d := funext fun a => Fin.ext (by
    match a with
    | ⟨0, _⟩ => show 0 + 1 * u0.val = 0; omega
    | ⟨1, _⟩ => show 1 + 1 * u1.val = 1; omega
    | ⟨2, _⟩ => show 0 + 1 * i.val = i.val; omega
    | ⟨3, _⟩ => show 0 + 1 * d.val = d.val; omega)
  rw [hidx, E3_apply, pay1_eq]
  refine (cast_unit2_apply _ shapeCasts_S1024x64_S1x1x1024x64 u0 u1 i d).trans ?_
  rw [headOut_apply]
  unfold outOf
  refine Finset.sum_congr rfl fun j _ => ?_
  have ea : k0_pay12 (F := Ideal) (k0_pay2 P0) (k0_pay3 P1) (ix2 i j) = attnK (blockRows P0 ⟨1, by decide⟩) (blockRows P1 ⟨1, by decide⟩) i j :=
    fam_apply P0 P1 ⟨1, by decide⟩ i j
  have ev : k0_pay9 (F := Ideal) (k0_pay4 P2) (ix2 j d) = blockRows P2 ⟨1, by decide⟩ j d :=
    slice_apply 64 P2 slices_S1024x128_o0_64_S1024x64 j d _ (by show 1 * 64 + d.val = 64 + d.val; omega)
  rw [ea, ev]

/-- THE OUTPUT BLOCK: the canon of the two heads' output pieces is `E3`. -/
theorem canon3_eq (P0 P1 P2 : Vec Ideal S1x1024x128 .f32) (y : S1x2x1024x64.Idx) :
    View.canon [⟨r0_4, k0_pay1 (F := Ideal) (k0_pay9 (k0_pay4 P2)) (k0_pay12 (k0_pay2 P0) (k0_pay3 P1))⟩,
      ⟨r0_2, k0_pay8 (F := Ideal) (k0_pay5 P2) (k0_pay6 P0 P1)⟩] y = E3 P0 P1 P2 y := by
  refine View.canon_apply_of_pieces (E3 P0 P1 P2) _ ?_ y (cover0_3 _ _ y)
  intro pc hpc
  rcases List.mem_cons.mp hpc with rfl | hpc
  · exact fun x => piece3_1 P0 P1 P2 x
  rcases List.mem_cons.mp hpc with rfl | hpc
  · exact fun x => piece3_0 P0 P1 P2 x
  nomatch hpc

end Cert.KernelIdeal.BlockValue

end
-- ==== Proof.KernelArrays.lean ====
/-
  From blocks to arrays: after the kernel's run its two result arrays are the specification's arrays of the
  argument arrays.

  The host reshapes each argument [4, 1024, 8, 64] to [4, 1024, 512]: entry (b, i, h·64 + d) is (b, i, h, d).  Grid
  point (b, p) stages the [1, 1024, 128] blocks at block index (b, 0, p) — the rows of heads 2p and 2p + 1 of batch b —
  and writes back the [1, 2, 1024, ·] blocks at block index (b, p, 0, 0) of the results.  So head hh of the pair at
  point (b, p) is head (b, 2p + hh) of the arrays, the block the point writes is that head pair's part of the
  specification, and the sixteen points' blocks tile the results.
-/
import proofs.«107504_j42030549959122_2_alg».proof.Proof.Gen.KernelIdeal.Value
import proofs.«107504_j42030549959122_2_alg».proof.Proof.KernelBlock
import Idealize.ShloMosaic.Lib.StableHlo.Run

set_option maxRecDepth 16384

noncomputable section

namespace Cert.KernelIdeal.ArrValue

open Cert.KernelIdeal Cert.KernelIdeal.Gen Idealize.ShloMosaic Idealize.ShloMosaic.TcCoe Idealize.SL.Sem
open Idealize.ShloMosaic.ValueIdx
open Idealize.ShloMosaic.Pipeline (Dat)
open Cert.Attn Cert.KernelIdeal.BlockValue

variable (m : (ℓ : Loc nD τ sig) → Buf (Elt Ideal) ℓ) (ρ : Dev nD → PrngReg)

/-! ## The index maps, decided over the sixteen grid points -/

/-- Every input window sits at block (b, 0, p) and the output window at (b, p, 0, 0), where (b, p, 0, 0) is the weights
    window's block index. -/
theorem idx_facts : ∀ t : Fin cfg0.N,
    win0_0.index t (0 : Fin 3) = win0_4.index t (0 : Fin 4) ∧ win0_0.index t (1 : Fin 3) = 0 ∧ win0_0.index t (2 : Fin 3) = win0_4.index t (1 : Fin 4)
    ∧ win0_1.index t (0 : Fin 3) = win0_4.index t (0 : Fin 4) ∧ win0_1.index t (1 : Fin 3) = 0 ∧ win0_1.index t (2 : Fin 3) = win0_4.index t (1 : Fin 4)
    ∧ win0_2.index t (0 : Fin 3) = win0_4.index t (0 : Fin 4) ∧ win0_2.index t (1 : Fin 3) = 0 ∧ win0_2.index t (2 : Fin 3) = win0_4.index t (1 : Fin 4)
    ∧ win0_3.index t (0 : Fin 4) = win0_4.index t (0 : Fin 4) ∧ win0_3.index t (1 : Fin 4) = win0_4.index t (1 : Fin 4)
    ∧ win0_3.index t (2 : Fin 4) = 0 ∧ win0_3.index t (3 : Fin 4) = 0
    ∧ win0_4.index t (2 : Fin 4) = 0 ∧ win0_4.index t (3 : Fin 4) = 0 :=
  (by decide +kernel : ∀ t : Fin grid0.N, _)

theorem idx_bounds : ∀ t : Fin cfg0.N, win0_4.index t (0 : Fin 4) < 4 ∧ win0_4.index t (1 : Fin 4) < 4 :=
  (by decide +kernel : ∀ t : Fin grid0.N, _)

/-- Every (batch, head pair) is some point's. -/
theorem idx_onto : ∀ (q0 : Fin 4) (q1 : Fin 4), ∃ t : Fin cfg0.N, win0_4.index t = ![q0.val, q1.val, 0, 0] :=
  (by decide +kernel : ∀ (q0 : Fin 4) (q1 : Fin 4), ∃ t : Fin grid0.N, win0_4.index t = ![q0.val, q1.val, 0, 0])

/-- The batch of point t. -/
def bOf (t : Fin cfg0.N) : Fin 4 := ⟨win0_4.index t (0 : Fin 4), (idx_bounds t).1⟩

/-- The head that is number hh of point t's pair. -/
def hOf (t : Fin cfg0.N) (hh : Fin 2) : Fin 8 :=
  ⟨win0_4.index t (1 : Fin 4) * 2 + hh.val, by have := (idx_bounds t).2; have := hh.isLt; omega⟩

/-! ## The staged arrays are the reshaped arguments -/

theorem V_v0 (c : Dev nD) : (V m c main_v0 : S4x1024x512.Idx → EReal)
    = shapeCast S4x1024x512 (m ((c : Thread nD τ).loc main_arg0)) shapeCasts_S4x1024x8x64_S4x1024x512 := by
  dsimp only [Gen.V, Gen.hostOps0]; after_results; rfl

theorem V_v1 (c : Dev nD) : (V m c main_v1 : S4x1024x512.Idx → EReal)
    = shapeCast S4x1024x512 (m ((c : Thread nD τ).loc main_arg1)) shapeCasts_S4x1024x8x64_S4x1024x512 := by
  dsimp only [Gen.V, Gen.hostOps0]; after_results; rfl

theorem V_v2 (c : Dev nD) : (V m c main_v2 : S4x1024x512.Idx → EReal)
    = shapeCast S4x1024x512 (m ((c : Thread nD τ).loc main_arg2)) shapeCasts_S4x1024x8x64_S4x1024x512 := by
  dsimp only [Gen.V, Gen.hostOps0]; after_results; rfl

/-- The reshaped array at (b, i, h·64 + d) is the argument at (b, i, h, d). -/
theorem staged_apply (x : S4x1024x8x64.Idx → EReal) (z : S4x1024x512.Idx) (b : Fin 4) (i : Fin 1024) (h : Fin 8) (d : Fin 64)
    (h0 : (z 0).val = b.val) (h1 : (z 1).val = i.val) (h2 : (z 2).val = h.val * 64 + d.val) :
    shapeCast S4x1024x512 x shapeCasts_S4x1024x8x64_S4x1024x512 z = x (ix4 b i h d) :=
  shapeCast_apply x shapeCasts_S4x1024x8x64_S4x1024x512 z (ix4 b i h d) (by
    rw [Shape.rowMajor_val_four, Shape.rowMajor_val_three]
    show ((b.val * 1024 + i.val) * 8 + h.val) * 64 + d.val = ((z 0).val * 1024 + (z 1).val) * 512 + (z 2).val
    omega)

/-! ## Head hh of a point's input blocks is head (b, 2p + hh) of the arguments -/

theorem rows_iblk0 (c : Dev nD) (t : Fin cfg0.N) (hh : Fin 2) :
    blockRows (iblk m c 0 t) hh = rows (m ((c : Thread nD τ).loc main_arg0)) (bOf t) (hOf t hh) := by
  obtain ⟨e0, e1, e2, -⟩ := idx_facts t
  funext i d
  show V m c main_v0 (((cfg0.win 0).blk t).view.emb (ix3 (0 : Fin 1) i (⟨hh.val * 64 + d.val, by have := hh.isLt; have := d.isLt; omega⟩ : Fin 128))) = _
  refine (congrFun (V_v0 m c) _).trans ?_
  exact staged_apply _ _ (bOf t) i (hOf t hh) d
    (by show win0_0.index t (0 : Fin 3) * 1 + 1 * 0 = win0_4.index t (0 : Fin 4); omega)
    (by show win0_0.index t (1 : Fin 3) * 1024 + 1 * i.val = i.val; omega)
    (by show win0_0.index t (2 : Fin 3) * 128 + 1 * (hh.val * 64 + d.val) = (win0_4.index t (1 : Fin 4) * 2 + hh.val) * 64 + d.val; omega)

theorem rows_iblk1 (c : Dev nD) (t : Fin cfg0.N) (hh : Fin 2) :
    blockRows (iblk m c 1 t) hh = rows (m ((c : Thread nD τ).loc main_arg1)) (bOf t) (hOf t hh) := by
  obtain ⟨-, -, -, e0, e1, e2, -⟩ := idx_facts t
  funext i d
  show V m c main_v1 (((cfg0.win 1).blk t).view.emb (ix3 (0 : Fin 1) i (⟨hh.val * 64 + d.val, by have := hh.isLt; have := d.isLt; omega⟩ : Fin 128))) = _
  refine (congrFun (V_v1 m c) _).trans ?_
  exact staged_apply _ _ (bOf t) i (hOf t hh) d
    (by show win0_1.index t (0 : Fin 3) * 1 + 1 * 0 = win0_4.index t (0 : Fin 4); omega)
    (by show win0_1.index t (1 : Fin 3) * 1024 + 1 * i.val = i.val; omega)
    (by show win0_1.index t (2 : Fin 3) * 128 + 1 * (hh.val * 64 + d.val) = (win0_4.index t (1 : Fin 4) * 2 + hh.val) * 64 + d.val; omega)

theorem rows_iblk2 (c : Dev nD) (t : Fin cfg0.N) (hh : Fin 2) :
    blockRows (iblk m c 2 t) hh = rows (m ((c : Thread nD τ).loc main_arg2)) (bOf t) (hOf t hh) := by
  obtain ⟨-, -, -, -, -, -, e0, e1, e2, -⟩ := idx_facts t
  funext i d
  show V m c main_v2 (((cfg0.win 2).blk t).view.emb (ix3 (0 : Fin 1) i (⟨hh.val * 64 + d.val, by have := hh.isLt; have := d.isLt; omega⟩ : Fin 128))) = _
  refine (congrFun (V_v2 m c) _).trans ?_
  exact staged_apply _ _ (bOf t) i (hOf t hh) d
    (by show win0_2.index t (0 : Fin 3) * 1 + 1 * 0 = win0_4.index t (0 : Fin 4); omega)
    (by show win0_2.index t (1 : Fin 3) * 1024 + 1 * i.val = i.val; omega)
    (by show win0_2.index t (2 : Fin 3) * 128 + 1 * (hh.val * 64 + d.val) = (win0_4.index t (1 : Fin 4) * 2 + hh.val) * 64 + d.val; omega)

/-! ## What a point writes back is its block of the specification -/

theorem hz3 : (![0, 0, 0] : Fin 3 → Nat) = fun _ => 0 := funext fun a => by fin_cases a <;> rfl

/-- The weights window. -/
theorem flushed4_eq (c : Dev nD) (t : Fin cfg0.N) :
    (dats m 0 c).flushed 4 t = ((cfg0.win 4).blk t).view.read (Elt Ideal)
      (Gattn (m ((c : Thread nD τ).loc main_arg0)) (m ((c : Thread nD τ).loc main_arg1))) := by
  show (cfg0.win 4).cut (grid0.coords t) ((dats m 0 c).after 4 t) = _
  rw [after0_4]
  unfold out0_4
  simp only [View.ld_unit_zero (S := S1x1024x128) hz3]
  obtain ⟨-, -, -, -, -, -, -, -, -, -, -, -, -, e2, e3⟩ := idx_facts t
  funext y
  obtain ⟨u, hh, i, j, rfl⟩ : ∃ (u : Fin 1) (hh : Fin 2) (i j : Fin 1024), y = ix4 u hh i j := ⟨_, _, _, _, eq_ix4 y⟩
  show _ = Gattn (m ((c : Thread nD τ).loc main_arg0)) (m ((c : Thread nD τ).loc main_arg1)) (((cfg0.win 4).blk t).view.emb (ix4 u hh i j))
  have hemb : ((cfg0.win 4).blk t).view.emb (ix4 u hh i j) = ix4 (bOf t) (hOf t hh) i j := funext fun a => Fin.ext (by
    match a with
    | ⟨0, _⟩ => show win0_4.index t (0 : Fin 4) * 1 + 1 * u.val = win0_4.index t (0 : Fin 4); omega
    | ⟨1, _⟩ => show win0_4.index t (1 : Fin 4) * 2 + 1 * hh.val = win0_4.index t (1 : Fin 4) * 2 + hh.val; omega
    | ⟨2, _⟩ => show win0_4.index t (2 : Fin 4) * 1024 + 1 * i.val = i.val; omega
    | ⟨3, _⟩ => show win0_4.index t (3 : Fin 4) * 1024 + 1 * j.val = j.val; omega)
  rw [hemb, Gattn_ix4]
  refine (Value.canon4_eq (F := Ideal) (iblk m c 0 t) (iblk m c 1 t) (ix4 u hh i j)).trans ?_
  rw [E4_apply, rows_iblk0, rows_iblk1]

/-- The output window. -/
theorem flushed3_eq (c : Dev nD) (t : Fin cfg0.N) :
    (dats m 0 c).flushed 3 t = ((cfg0.win 3).blk t).view.read (Elt Ideal)
      (Gout (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  simp only [View.ld_unit_zero (S := S1x1024x128) hz3]
  obtain ⟨-, -, -, -, -, -, -, -, -, f0, f1, f2, f3, -⟩ := idx_facts t
  funext y
  obtain ⟨u, hh, i, d, rfl⟩ : ∃ (u : Fin 1) (hh : Fin 2) (i : Fin 1024) (d : Fin 64), y = ix4 u hh i d := ⟨_, _, _, _, eq_ix4 y⟩
  show _ = Gout (m ((c : Thread nD τ).loc main_arg0)) (m ((c : Thread nD τ).loc main_arg1)) (m ((c : Thread nD τ).loc main_arg2))
        (((cfg0.win 3).blk t).view.emb (ix4 u hh i d))
  have hemb : ((cfg0.win 3).blk t).view.emb (ix4 u hh i d) = ix4 (bOf t) (hOf t hh) i d := funext fun a => Fin.ext (by
    match a with
    | ⟨0, _⟩ => show win0_3.index t (0 : Fin 4) * 1 + 1 * u.val = win0_4.index t (0 : Fin 4); omega
    | ⟨1, _⟩ => show win0_3.index t (1 : Fin 4) * 2 + 1 * hh.val = win0_4.index t (1 : Fin 4) * 2 + hh.val; omega
    | ⟨2, _⟩ => show win0_3.index t (2 : Fin 4) * 1024 + 1 * i.val = i.val; omega
    | ⟨3, _⟩ => show win0_3.index t (3 : Fin 4) * 64 + 1 * d.val = d.val; omega)
  rw [hemb, Gout_ix4]
  refine (canon3_eq (iblk m c 0 t) (iblk m c 1 t) (iblk m c 2 t) (ix4 u hh i d)).trans ?_
  rw [E3_apply, rows_iblk0, rows_iblk1, rows_iblk2]

/-! ## The sixteen blocks tile each result -/

theorem mem_blk4 (t : Fin cfg0.N) (i : S4x8x1024x1024.Idx) :
    i ∈ ((cfg0.win 4).blk t).view.set ↔ ∀ a : Fin 4, win0_4.index t a * S1x2x1024x1024.size a ≤ (i a).val
      ∧ (i a).val < win0_4.index t a * S1x2x1024x1024.size a + S1x2x1024x1024.size a := by
  show i ∈ ((View.whole main_v3_1).slice (win0_4.rect t)).set ↔ _
  rw [View.set_slice_whole, Rect.mem_set_unit]
  exact Iff.rfl

theorem mem_blk3 (t : Fin cfg0.N) (i : S4x8x1024x64.Idx) :
    i ∈ ((cfg0.win 3).blk t).view.set ↔ ∀ a : Fin 4, win0_3.index t a * S1x2x1024x64.size a ≤ (i a).val
      ∧ (i a).val < win0_3.index t a * S1x2x1024x64.size a + S1x2x1024x64.size a := by
  show i ∈ ((View.whole main_v3_0).slice (win0_3.rect t)).set ↔ _
  rw [View.set_slice_whole, Rect.mem_set_unit]
  exact Iff.rfl

theorem cover4 (i : S4x8x1024x1024.Idx) :
    ∃ t : Fin cfg0.N, (cfg0.win 4).flush t = true ∧ i ∈ ((cfg0.win 4).blk t).view.set := by
  have hi0 : (i 0).val < 4 := (i 0).isLt
  have hi1 : (i 1).val < 8 := (i 1).isLt
  have hi2 : (i 2).val < 1024 := (i 2).isLt
  have hi3 : (i 3).val < 1024 := (i 3).isLt
  obtain ⟨t, ht⟩ := idx_onto ⟨(i 0).val, hi0⟩ ⟨(i 1).val / 2, by omega⟩
  have q0 : win0_4.index t (0 : Fin 4) = (i 0).val := congrFun ht 0
  have q1 : win0_4.index t (1 : Fin 4) = (i 1).val / 2 := congrFun ht 1
  have q2 : win0_4.index t (2 : Fin 4) = 0 := congrFun ht 2
  have q3 : win0_4.index t (3 : Fin 4) = 0 := congrFun ht 3
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 2 ≤ (i 1).val ∧ (i 1).val < win0_4.index t (1 : Fin 4) * 2 + 2; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 1024 ≤ (i 3).val ∧ (i 3).val < win0_4.index t (3 : Fin 4) * 1024 + 1024; omega

theorem cover3 (i : S4x8x1024x64.Idx) :
    ∃ t : Fin cfg0.N, (cfg0.win 3).flush t = true ∧ i ∈ ((cfg0.win 3).blk t).view.set := by
  have hi0 : (i 0).val < 4 := (i 0).isLt
  have hi1 : (i 1).val < 8 := (i 1).isLt
  have hi2 : (i 2).val < 1024 := (i 2).isLt
  have hi3 : (i 3).val < 64 := (i 3).isLt
  obtain ⟨t, ht⟩ := idx_onto ⟨(i 0).val, hi0⟩ ⟨(i 1).val / 2, by omega⟩
  obtain ⟨-, -, -, -, -, -, -, -, -, f0, f1, f2, f3, -⟩ := idx_facts t
  have q0 : win0_4.index t (0 : Fin 4) = (i 0).val := congrFun ht 0
  have q1 : win0_4.index t (1 : Fin 4) = (i 1).val / 2 := congrFun ht 1
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 2 ≤ (i 1).val ∧ (i 1).val < win0_3.index t (1 : Fin 4) * 2 + 2; omega
  | ⟨2, _⟩ => show win0_3.index t (2 : Fin 4) * 1024 ≤ (i 2).val ∧ (i 2).val < win0_3.index t (2 : Fin 4) * 1024 + 1024; omega
  | ⟨3, _⟩ => show win0_3.index t (3 : Fin 4) * 64 ≤ (i 3).val ∧ (i 3).val < win0_3.index t (3 : Fin 4) * 64 + 64; omega

/-! ## The arrays after the run, and the run -/

theorem final4 (c : Dev nD) : (dats m 0 c).arrAt 4 cfg0.N
    = Gattn (m ((c : Thread nD τ).loc main_arg0)) (m ((c : Thread nD τ).loc main_arg1)) :=
  (dats m 0 c).arrAt_eq_of_cover 4 _ (fun t _ => flushed4_eq m c t) cover4

theorem final3 (c : Dev nD) : (dats m 0 c).arrAt 3 cfg0.N
    = Gout (m ((c : Thread nD τ).loc main_arg0)) (m ((c : Thread nD τ).loc main_arg1)) (m ((c : Thread nD τ).loc main_arg2)) :=
  (dats m 0 c).arrAt_eq_of_cover 3 _ (fun t _ => flushed3_eq m c t) cover3

/-- THE KERNEL'S RUN: every weakly fair execution ends with the two result arrays at the specification's arrays of the
    argument arrays, the arguments unchanged. -/
theorem run : θ_run defs (onTc (τ := τ) (main (F := Ideal))) ⟨m, fun _ => 0, ρ⟩ fun r => ∀ c : Dev nD,
      r.2.mem ((c : Thread nD τ).loc main_v3_0)
        = Gout (m ((c : Thread nD τ).loc main_arg0)) (m ((c : Thread nD τ).loc main_arg1)) (m ((c : Thread nD τ).loc main_arg2))
      ∧ r.2.mem ((c : Thread nD τ).loc main_v3_1)
        = Gattn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.ArrValue

end
-- ==== Proof.RefRead.lean ====
/-
  The reference, read stage by stage at an index: its two results are the specification's arrays when the
  query and key arrays hold real numbers.

  The transposes put head (b, h)'s rows at [b, h, i, ·]; each row is divided by its clamped length; the score of
  (i, j) is the inner product of the normalized rows divided by 8; the row maximum M (taken from minus infinity, and
  once more against minus infinity) is subtracted before the exponential; the weights are the exponentials over
  their row sum, and the output is their product with the value rows.  The row maximum of 1024 real scores is a real
  number, which is all the law between the two forms asks of it.
-/
import proofs.«107504_j42030549959122_2_alg».proof.Proof.Gen.ReferenceIdeal.Read
import proofs.«107504_j42030549959122_2_alg».proof.Proof.AttnSpec
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.Attn Cert.Lib.SoftmaxShift

variable (x0 x1 x2 : (⟨S4x1024x8x64, .f32⟩ : BufTy).Contents (Elt Ideal))

/-- The clamped length of query row (b, h, i). -/
theorem qnorm_at (b : Fin 4) (h : Fin 8) (i : Fin 1024) :
    val_main_v8 (F := Ideal) x0 (ix4 b h i (0 : Fin 1)) = nrmR (rows x0 b h i) := by
  have hidx : ∀ k : Fin 64, idx_main_v0 (idx_main_v4 (idx_main_v5 (ix4 b h i (0 : Fin 1))) k) = ix4 b i h k := fun k =>
    funext fun a => Fin.ext (by match a with | ⟨0, _⟩ => rfl | ⟨1, _⟩ => rfl | ⟨2, _⟩ => rfl | ⟨3, _⟩ => rfl)
  rw [val_main_v8_apply, val_main_v6_apply, val_main_v5_apply, val_main_v4_apply, val_main_v7_apply,
    val_main_cst_0_apply, val_main_cst_apply]
  simp only [val_main_v3_apply, val_main_v0_apply, hidx, Ideal.mulf_def, Ideal.maximumf_def,
    Ideal.hostUnary_sqrt_def, Ideal.ofBits_def]
  rfl

/-- The clamped length of key row (b, h, j). -/
theorem knorm_at (b : Fin 4) (h : Fin 8) (j : Fin 1024) :
    val_main_v16 (F := Ideal) x1 (ix4 b h j (0 : Fin 1)) = nrmR (rows x1 b h j) := by
  have hidx : ∀ k : Fin 64, idx_main_v1 (idx_main_v12 (idx_main_v13 (ix4 b h j (0 : Fin 1))) k) = ix4 b j h k := fun k =>
    funext fun a => Fin.ext (by match a with | ⟨0, _⟩ => rfl | ⟨1, _⟩ => rfl | ⟨2, _⟩ => rfl | ⟨3, _⟩ => rfl)
  rw [val_main_v16_apply, val_main_v14_apply, val_main_v13_apply, val_main_v12_apply, val_main_v15_apply,
    val_main_cst_2_apply, val_main_cst_1_apply]
  simp only [val_main_v11_apply, val_main_v1_apply, hidx, Ideal.mulf_def, Ideal.maximumf_def,
    Ideal.hostUnary_sqrt_def, Ideal.ofBits_def]
  rfl

/-- The normalized query entry. -/
theorem qn_at (b : Fin 4) (h : Fin 8) (i : Fin 1024) (d : Fin 64) :
    val_main_v10 (F := Ideal) x0 (ix4 b h i d) = Ideal.div (rows x0 b h i d) (nrmR (rows x0 b h i)) := by
  have e9 : idx_main_v9 (ix4 b h i d) = ix4 b h i (0 : Fin 1) :=
    funext fun a => Fin.ext (by match a with | ⟨0, _⟩ => rfl | ⟨1, _⟩ => rfl | ⟨2, _⟩ => rfl | ⟨3, _⟩ => rfl)
  have e0 : idx_main_v0 (ix4 b h i d) = ix4 b i h d :=
    funext fun a => Fin.ext (by match a with | ⟨0, _⟩ => rfl | ⟨1, _⟩ => rfl | ⟨2, _⟩ => rfl | ⟨3, _⟩ => rfl)
  rw [val_main_v10_apply, val_main_v9_apply, val_main_v0_apply, e9, e0, qnorm_at, Ideal.hostDivf_def]
  rfl

/-- The normalized key entry. -/
theorem kn_at (b : Fin 4) (h : Fin 8) (j : Fin 1024) (d : Fin 64) :
    val_main_v18 (F := Ideal) x1 (ix4 b h j d) = Ideal.div (rows x1 b h j d) (nrmR (rows x1 b h j)) := by
  have e17 : idx_main_v17 (ix4 b h j d) = ix4 b h j (0 : Fin 1) :=
    funext fun a => Fin.ext (by match a with | ⟨0, _⟩ => rfl | ⟨1, _⟩ => rfl | ⟨2, _⟩ => rfl | ⟨3, _⟩ => rfl)
  have e1 : idx_main_v1 (ix4 b h j d) = ix4 b j h d :=
    funext fun a => Fin.ext (by match a with | ⟨0, _⟩ => rfl | ⟨1, _⟩ => rfl | ⟨2, _⟩ => rfl | ⟨3, _⟩ => rfl)
  rw [val_main_v18_apply, val_main_v17_apply, val_main_v1_apply, e17, e1, knorm_at, Ideal.hostDivf_def]
  rfl

/-- The score of (i, j) in head (b, h). -/
theorem score_at (b : Fin 4) (h : Fin 8) (i j : Fin 1024) :
    val_main_v21 (F := Ideal) x0 x1 (ix4 b h i j) = scoreR (rows x0 b h) (rows x1 b h) i j := by
  have el : ∀ k : Fin 64, lidx_main_v19 (ix4 b h i j) k = ix4 b h i k := fun k =>
    funext fun a => Fin.ext (by match a with | ⟨0, _⟩ => rfl | ⟨1, _⟩ => rfl | ⟨2, _⟩ => rfl | ⟨3, _⟩ => rfl)
  have er : ∀ k : Fin 64, ridx_main_v19 (ix4 b h i j) k = ix4 b h j k := fun k =>
    funext fun a => Fin.ext (by match a with | ⟨0, _⟩ => rfl | ⟨1, _⟩ => rfl | ⟨2, _⟩ => rfl | ⟨3, _⟩ => rfl)
  rw [val_main_v21_apply, val_main_v19_apply, val_main_v20_apply, val_main_cst_3_apply, Ideal.hostDivf_def, Ideal.ofBits_def]
  simp only [el, er, qn_at, kn_at]
  rfl

/-- The reference's row maximum is a real number when the query and key arrays are real. -/
theorem rowmax_real (hq : AllReal x0) (hk : AllReal x1) (b : Fin 4) (h : Fin 8) (i : Fin 1024) :
    ∃ r : ℝ, val_main_v24 (F := Ideal) x0 x1 (ix3 b h i) = (r : EReal) := by
  have hred : S4x8x1024x1024.Reduces [3] S4x8x1024 := by decide
  have hfold := Host.reduce_eq_fold_single (FloatOps.maximumf (F := Ideal) (φ := .f32)) (val_main_v21 (F := Ideal) x0 x1)
    (val_main_cst_4 (F := Ideal)) reducesTo_S4x8x1024x1024_S4x8x1024_d3 hred h_S_ (ix3 b h i)
  rw [val_main_cst_4_apply, Ideal.ofBits_def, ofBits_neg_inf] at hfold
  rw [val_main_v24_apply, val_main_v23_apply, val_main_cst_5_apply, Ideal.maximumf_def, Ideal.ofBits_def, ofBits_neg_inf]
  unfold val_main_v22
  rw [hfold]
  obtain ⟨r, hr⟩ := fold_max_real (Finset.univ : Finset (Fin (S4x8x1024x1024.size 3))) ⟨⟨0, by decide⟩, Finset.mem_univ _⟩
    (val_main_v21 (F := Ideal) x0 x1 ∘ hred.lift (ix3 b h i)) (fun k _ => by
      obtain ⟨b', h', i', j', e⟩ : ∃ (b' : Fin 4) (h' : Fin 8) (i' j' : Fin 1024), hred.lift (ix3 b h i) k = ix4 b' h' i' j' :=
        ⟨_, _, _, _, eq_ix4 _⟩
      show ∃ r : ℝ, val_main_v21 (F := Ideal) x0 x1 (hred.lift (ix3 b h i) k) = (r : EReal)
      rw [e, score_at]
      exact scoreR_real _ _ (hq.rows b' h') (hk.rows b' h') i' j')
  refine ⟨r, ?_⟩
  refine Eq.trans ?_ (max_eq_right bot_le : max ⊥ (r : EReal) = r)
  exact congrArg (max ⊥) hr

/-- The weight of (i, j) in head (b, h), in the shifted form with the reference's row maximum as the shift. -/
theorem attn_at (b : Fin 4) (h : Fin 8) (i j : Fin 1024) :
    val_main_v32 (F := Ideal) x0 x1 (ix4 b h i j)
      = attnR (rows x0 b h) (rows x1 b h) (val_main_v24 (F := Ideal) x0 x1 (ix3 b h i)) i j := by
  have e26 : ∀ j' : Fin 1024, idx_main_v25 (idx_main_v26 (ix4 b h i j')) = ix3 b h i := fun j' =>
    funext fun a => Fin.ext (by match a with | ⟨0, _⟩ => rfl | ⟨1, _⟩ => rfl | ⟨2, _⟩ => rfl)
  have e29 : ∀ k : Fin 1024, idx_main_v29 (idx_main_v30 (idx_main_v31 (ix4 b h i j))) k = ix4 b h i k := fun k =>
    funext fun a => Fin.ext (by match a with | ⟨0, _⟩ => rfl | ⟨1, _⟩ => rfl | ⟨2, _⟩ => rfl | ⟨3, _⟩ => rfl)
  have e28 : ∀ j' : Fin 1024, val_main_v28 (F := Ideal) x0 x1 (ix4 b h i j')
      = Ideal.exp (scoreR (rows x0 b h) (rows x1 b h) i j' - val_main_v24 (F := Ideal) x0 x1 (ix3 b h i)) := fun j' => by
    rw [val_main_v28_apply, val_main_v27_apply, val_main_v26_apply, val_main_v25_apply, e26, score_at,
      Ideal.hostUnary_exp_def, Ideal.subf_def]
  rw [val_main_v32_apply, val_main_v31_apply, val_main_v30_apply, val_main_v29_apply, val_main_cst_6_apply,
    Ideal.hostDivf_def, Ideal.ofBits_def]
  simp only [e29, e28]
  rfl

/-- The output entry (i, d) of head (b, h): the weights' product with the value rows. -/
theorem out_at (b : Fin 4) (h : Fin 8) (i : Fin 1024) (d : Fin 64) :
    val_main_v33 (F := Ideal) x0 x1 x2 (ix4 b h i d)
      = outOf (fun i' j' => val_main_v32 (F := Ideal) x0 x1 (ix4 b h i' j')) (rows x2 b h) i d := by
  have el : ∀ k : Fin 1024, lidx_main_v33 (ix4 b h i d) k = ix4 b h i k := fun k =>
    funext fun a => Fin.ext (by match a with | ⟨0, _⟩ => rfl | ⟨1, _⟩ => rfl | ⟨2, _⟩ => rfl | ⟨3, _⟩ => rfl)
  have er : ∀ k : Fin 1024, idx_main_v2 (ridx_main_v33 (ix4 b h i d) k) = ix4 b k h d := fun k =>
    funext fun a => Fin.ext (by match a with | ⟨0, _⟩ => rfl | ⟨1, _⟩ => rfl | ⟨2, _⟩ => rfl | ⟨3, _⟩ => rfl)
  rw [val_main_v33_apply]
  simp only [el, val_main_v2_apply, er]
  rfl

/-- THE REFERENCE'S WEIGHTS are the specification's, on real query and key arrays. -/
theorem attn_eq (hq : AllReal x0) (hk : AllReal x1) : val_main_v32 (F := Ideal) x0 x1 = Gattn x0 x1 := by
  funext y
  obtain ⟨b, h, i, j, rfl⟩ : ∃ (b : Fin 4) (h : Fin 8) (i j : Fin 1024), y = ix4 b h i j := ⟨_, _, _, _, eq_ix4 y⟩
  rw [attn_at, Gattn_ix4]
  exact attnR_eq_attnK (by norm_num) _ _ (hq.rows b h) (hk.rows b h) _ (rowmax_real x0 x1 hq hk b h i) i j

/-- THE REFERENCE'S OUTPUT is the specification's, on real query and key arrays (the value array may hold anything). -/
theorem out_eq (hq : AllReal x0) (hk : AllReal x1) : val_main_v33 (F := Ideal) x0 x1 x2 = Gout x0 x1 x2 := by
  funext y
  obtain ⟨b, h, i, d, rfl⟩ : ∃ (b : Fin 4) (h : Fin 8) (i : Fin 1024) (d : Fin 64), y = ix4 b h i d := ⟨_, _, _, _, eq_ix4 y⟩
  rw [out_at, Gout_ix4, attn_eq x0 x1 hq hk]
  rfl

end Cert.ReferenceIdeal.RefValue

end
-- ==== Proof.Finite.lean ====
/-
  The precondition read back: when every float input is finite, every entry of the query and key arrays is a
  real number.

  The precondition is the conjunction, over the three arguments, of "all entries satisfy |x| < +∞".  A conjunction
  word that is 1 has both conjuncts 1; an all-reduction by "and" that is 1 had a 1 at every entry; and an extended
  real whose absolute value max(x, −x) is below +∞ is neither infinity.
-/
import proofs.«107504_j42030549959122_2_alg».proof.Pre_finite_inputs
import proofs.«107504_j42030549959122_2_alg».proof.Proof.Gen.Pre_finite_inputs
import proofs.«107504_j42030549959122_2_alg».proof.Proof.AttnSpec
import Idealize.ShloMosaic.Lib.ReduceAll
import Idealize.ShloMosaic.Lib.ValueIdx

noncomputable section

namespace Cert.Attn.Finite

open Idealize.ShloMosaic Cert.Pre_finite_inputs Cert.Pre_finite_inputs.Gen Cert.Attn

instance : Subsingleton S_.Idx := ⟨fun a b => funext fun d => d.elim0⟩

/-- The all-ones exponent with a clear sign bit and a zero fraction denotes plus infinity. -/
theorem ofBits_pos_inf : Ideal.ofBits .f32 0x7F800000#32 = ⊤ := by
  simp [Ideal.ofBits, Ideal.ieee]

/-- An extended real whose absolute value is below plus infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry's comparison word. -/
theorem real_of_word (x : EReal) (h : Ideal.cmp .olt (max x (-x)) (Ideal.ofBits .f32 0x7F800000#32) = 1#1) :
    ∃ r : ℝ, x = (r : EReal) := by
  refine real_of_abs_lt_top x ?_
  rw [ofBits_pos_inf] at h
  by_contra hn
  simp [Ideal.cmp, hn] at h

/-- THE PRECONDITION gives real query and key arrays. -/
theorem allReal_of_pre (x0 x1 x2 : FVec Ideal S4x1024x8x64 .f32)
    (h : Cert.Pre_finite_inputs.fn (F := Ideal) x0 x1 x2 = fun _ => 1#1) : AllReal x0 ∧ AllReal x1 := by
  have h0 := congrFun h ValueIdx.ix0
  dsimp only [Cert.Pre_finite_inputs.fn] at h0
  obtain ⟨h01, -⟩ := IntOp.andi_eq_one.1 h0
  obtain ⟨hq, hk⟩ := IntOp.andi_eq_one.1 h01
  refine ⟨fun y => ?_, fun y => ?_⟩
  · exact real_of_word (x0 y) (Host.reduce_andi_all _ _ _ _ _ hq y)
  · exact real_of_word (x1 y) (Host.reduce_andi_all _ _ _ _ _ hk y)

end Cert.Attn.Finite

end
-- ==== Proof.lean ====
/-
  Cosine-similarity attention over q, k, v : [4, 1024, 8, 64] (batch, position, head, channel): the kernel against
  its reference, at the exact extended reals, under the precondition that every input entry is finite.

  Both programs divide each query and key row of a head by its clamped Euclidean length max(sqrt(Σ x_d²), ε), take
  inner products of the normalized rows scaled by 1/8, exponentiate, divide each row by its sum (the weights, the
  second result) and multiply the weights with the head's value rows (the first result).  They differ in two places:
  the kernel multiplies the normalized query rows by 1/8 before the inner products where the reference divides
  the inner products by 8, and the reference subtracts each row's maximum before the exponential where the kernel
  does not.  On real rows Σ (a_d/8)·b_d = (Σ a_d·b_d)/8, and a real shift M cancels between exp(s − M) and
  Σ exp(s' − M); finiteness is what makes every intermediate a real (the clamp ε > 0 keeps the divisors off zero, and
  a row's 1024 real scores have a real maximum).  The value array enters only through the final product, the same on
  both sides, so nothing is asked of it.

  The kernel's grid point (b, p) computes heads 2p and 2p + 1 of batch b from [1, 1024, 128] blocks of the arguments
  reshaped to [4, 1024, 512]; the reference transposes the arguments to [4, 8, 1024, 64].  Each side's results are shown
  to be the same two functions of the argument arrays (Proof/AttnSpec.lean): the kernel's in Proof/KernelHead.lean
  (one head of the body at an index), Proof/KernelBlock.lean (a point's output blocks) and Proof/KernelArrays.lean
  (blocks to arrays), the reference's in Proof/RefRead.lean; the law between the two forms is Proof/SoftmaxLaw.lean and
  the precondition is read back in Proof/Finite.lean.  The three frames are the generated ones; the idealization
  rewrote nothing, so `preserves` is `True`.
-/
import proofs.«107504_j42030549959122_2_alg».proof.Defs
import proofs.«107504_j42030549959122_2_alg».proof.Proof.Gen.Kernel
import proofs.«107504_j42030549959122_2_alg».proof.Proof.Gen.Kernel.Skeleton
import proofs.«107504_j42030549959122_2_alg».proof.Proof.Gen.Kernel.Launch
import proofs.«107504_j42030549959122_2_alg».proof.Proof.Gen.Kernel.Points
import proofs.«107504_j42030549959122_2_alg».proof.Proof.Gen.Kernel.Frame
import proofs.«107504_j42030549959122_2_alg».proof.Proof.Gen.KernelIdeal
import proofs.«107504_j42030549959122_2_alg».proof.Proof.Gen.KernelIdeal.Skeleton
import proofs.«107504_j42030549959122_2_alg».proof.Proof.Gen.KernelIdeal.Launch
import proofs.«107504_j42030549959122_2_alg».proof.Proof.Gen.KernelIdeal.Points
import proofs.«107504_j42030549959122_2_alg».proof.Proof.Gen.KernelIdeal.Frame
import proofs.«107504_j42030549959122_2_alg».proof.Proof.Gen.ReferenceIdeal
import proofs.«107504_j42030549959122_2_alg».proof.Proof.Gen.Pre_finite_inputs
import proofs.«107504_j42030549959122_2_alg».proof.Proof.Gen.KernelIdeal.Value
import proofs.«107504_j42030549959122_2_alg».proof.Proof.Gen.ReferenceIdeal.Run
import proofs.«107504_j42030549959122_2_alg».proof.Proof.Gen.ReferenceIdeal.Read
import proofs.«107504_j42030549959122_2_alg».proof.Proof.KernelArrays
import proofs.«107504_j42030549959122_2_alg».proof.Proof.RefRead
import proofs.«107504_j42030549959122_2_alg».proof.Proof.Finite
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both runs end at the specification's two arrays of the arguments: the kernel's by its blocks, the reference's
    stage by stage and by the law between the shifted and the unshifted weights, on the real query and key arrays the
    precondition gives. -/
theorem algebraic : Cert.algebraic_KernelIdeal_ReferenceIdeal := by
  intro m ρ m' ρ' hpre hagree
  have hfin := fun c => Cert.Attn.Finite.allReal_of_pre _ _ _ (hpre c)
  refine ⟨_, _, Cert.KernelIdeal.ArrValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v33_eq, (hagree c).1, (hagree c).2.1, (hagree c).2.2]
    exact Cert.ReferenceIdeal.RefValue.out_eq _ _ _ (hfin c).1 (hfin c).2
  · rw [(h c).2.1, Cert.ReferenceIdeal.Read.val_main_v32_eq, (hagree c).1, (hagree c).2.1]
    exact Cert.ReferenceIdeal.RefValue.attn_eq _ _ (hfin c).1 (hfin c).2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
